-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩
abbrev S256x8192 : Shape := ⟨2, ![256, 8192]⟩
abbrev S8192x8192 : Shape := ⟨2, ![8192, 8192]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  transposes_S8192x256_S256x8192_1_0 : S8192x256.Transposes [1, 0] S256x8192
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x8192 .f32 := (transpose S256x8192 [1, 0] · transposes_S8192x256_S256x8192_1_0) main_arg0
  let main_v5 : FVec F S8192x8192 .f32 := (fun l r => Host.dotGeneral dot_S8192x256_S256x8192_S8192x8192_1_0_0_1_n_n none l r) main_arg0 main_v4
  let main_cst_0 : FVec F S_ .f32 := constant S_ .f32 0x00000000#32
  let main_v6 : FVec F S8192 .f32 := (fun x v => Host.reduceAdd x v reducesTo_S8192x8192_S8192_d1 h_S_) main_v5 main_cst_0
  let main_cst_1 : FVec F S_ .f32 := constant S_ .f32 0x00000000#32
  let main_v7 : FVec F S8192 .f32 := broadcastInDim S8192 ![] bcast_S_S8192 main_cst_1
  let main_v8 : IVec S8192 1 := cmpf .une main_v6 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x256 : Shape := ⟨2, ![8192, 256]⟩
abbrev S2048x256 : Shape := ⟨2, ![2048, 256]⟩
abbrev S512x256 : Shape := ⟨2, ![512, 256]⟩
abbrev S2048x1 : Shape := ⟨2, ![2048, 1]⟩
abbrev S256x512 : Shape := ⟨2, ![256, 512]⟩
abbrev S2048x512 : Shape := ⟨2, ![2048, 512]⟩
abbrev S2048 : Shape := ⟨1, ![2048]⟩

abbrev nBuf : Space → Nat
  | .hbm => 3
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .bf16⟩
  | .hbm, ⟨2, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S512x256, .bf16⟩
  | .local _ .vmem, ⟨5, _⟩ => ⟨S512x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S2048x512_S2048 : S2048x512.Reduces [1] S2048
  shapeCasts_S2048_S2048x1 : S2048.ShapeCasts S2048x1
  broadcasts_S2048x1_S2048x256 : S2048x1.Broadcasts S2048x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .bf16 = 32 ∨ (Rect.block (s := S8192x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x8192, .f32⟩
  | .hbm, ⟨7, _⟩ => ⟨S8192x8192, .f32⟩
  | .hbm, ⟨8, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  transposes_S8192x256_S256x8192_1_0 : S8192x256.Transposes [1, 0] S256x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KWBase.lean ====
/-
  What the kernel's frame is stated over. The program is one narrowing of the argument array followed by the call; the
  call runs a 4 × 16 grid, point t being row tile t / 16 and column tile t % 16. The body resets its two accumulators at
  column tile 0, adds the tile's contribution at every point, and stores the output block at column tile 15; so the
  output window is idle, and not written back, at every other point.
-/
import proofs.«159248_j63376537420539_2_alg».proof.Proof.Gen.Kernel.Launch
import proofs.«159248_j63376537420539_2_alg».proof.Proof.Gen.Kernel.Skeleton
import proofs.«159248_j63376537420539_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the call -/

/-- The buffers' contents when the call is entered: the launch contents after the narrowing of the argument. -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program reduces to the call, entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The narrowing writes its own result only: the argument array is as launched. -/
theorem V_main_arg0 (c : Dev nD) : V m c main_arg0 = m ((c : Thread nD τ).loc main_arg0) := by
  dsimp only [V, V0, hostOps0]; after_results

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, decided over the grid -/

/-- The accumulators are reset: the column tile is 0. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- The output block is stored: the column tile is 15. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last column tile the body stores nothing into the output window, -/
theorem idleAt3 : ∀ t : Fin cfg0.N, ¬condLast (grid0.coords t) → cfg0.idle 3 (grid0.coords t) = true := by decide +kernel
/-- and the block is not written back there. -/
theorem noFlush3 : ∀ t : Fin cfg0.N, ¬condLast (grid0.coords t) → (cfg0.win 3).flush t = false := by decide +kernel
/-- At the last column tile the window is live. -/
theorem liveAt3 : ∀ t : Fin cfg0.N, condLast (grid0.coords t) → cfg0.idle 3 (grid0.coords t) = false := by decide +kernel

/-! ## The memrefs the body is called with -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
/-- The numerator accumulator and the denominator accumulator: whole buffers of the kernel's own. -/
abbrev scN : Memref sig .tc .vmem S2048x256 .f32 := Memref.whole cc0_scratch0
abbrev scD : Memref sig .tc .vmem S2048x1 .f32 := Memref.whole cc0_scratch1

/-- What the call hands the body beside the windows: the two accumulators at some contents and the generator register. -/
theorem PhiA0_eq (c : Dev nD) :
    (Pipeline.ΦA spec0 c : sProp 𝕄)
      = iprop(iprop((∃ d, owns (c : Thread nD τ) scN fullShare d) ∗ (∃ d, owns (c : Thread nD τ) scD fullShare d)) ∗ (∃ r, prngReg c r)) := by
  unfold Pipeline.ΦA; rw [scopedRest0_eq]; simp only [scN, scD, owns_whole]; try rfl

end Cert.Kernel.Hand

end
-- ==== Proof.KWRunA.lean ====
/-
  The body at a point where the column tile is 0 and not 15: both accumulators, found at anything, are reset and the tile's contribution added; the output block is left as found. What each buffer ends with is found by running the body: a list of stored
  pieces per buffer.
-/
import proofs.«159248_j63376537420539_2_alg».proof.Proof.KWBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on any whole memrefs: the inputs' blocks come back as they were; each buffer the body stores
    into comes back with its pieces written. -/
noncomputable def kernelRunA (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) :
    Σ' (LS0 : List (View.Piece (Elt F) S2048x256 .f32)), { LS1 : List (View.Piece (Elt F) S2048x1 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%d6, %f6, -, HS0⟩, ⟨%d7, %f7, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KWRunB.lean ====
/-
  The body at a point where the column tile is neither 0 nor 15: the tile's contribution is added to both accumulators as the point before left them; the output block is left as found. What each buffer ends with is found by running the body: a list of stored
  pieces per buffer.
-/
import proofs.«159248_j63376537420539_2_alg».proof.Proof.KWRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on any whole memrefs: the inputs' blocks come back as they were; each buffer the body stores
    into comes back with its pieces written. -/
noncomputable def kernelRunB (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) :
    Σ' (LS0 : List (View.Piece (Elt F) S2048x256 .f32)), { LS1 : List (View.Piece (Elt F) S2048x1 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f6, %hf6, HS0⟩, ⟨%f7, %hf7, HS1⟩, Hk⟩
    obtain rfl := harg2.eq_unread hf0; obtain rfl := harg3.eq_unread hf1; obtain rfl := harg4.eq_unread hf2; obtain rfl := harg5.eq_unread hf3; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KWRunC.lean ====
/-
  The body at a point where the column tile is 15: the tile's contribution is added to both accumulators as the point before left them, and the output block, found at anything, is stored. What each buffer ends with is found by running the body: a list of stored
  pieces per buffer.
-/
import proofs.«159248_j63376537420539_2_alg».proof.Proof.KWRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on any whole memrefs: the inputs' blocks come back as they were; each buffer the body stores
    into comes back with its pieces written. -/
noncomputable def kernelRunC (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) :
    Σ' (L3 : List (View.Piece (Elt F) S2048x256 .f32)) (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7) K } := by
  refine ⟨?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%f6, %hf6, HS0⟩, ⟨%f7, %hf7, HS1⟩, Hk⟩
    obtain rfl := harg2.eq_unread hf0; obtain rfl := harg3.eq_unread hf1; obtain rfl := harg4.eq_unread hf2; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.KWData.lean ====
/-
  What the body leaves, case by case and then point by point. In each case every buffer the body stores into is covered by
  the pieces it stored, so its contents afterwards are those pieces read back. Point by point: the numerator and
  denominator accumulators after point n are the case's result over what point n - 1 left (over nothing at column tile 0),
  and the output block is defined at the points of column tile 15. The accumulators travel in the body's invariant; the
  argument array, read by two windows, is held half by each.
-/
import proofs.«159248_j63376537420539_2_alg».proof.Proof.KWRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the accumulators' and the output block's contents are stated. -/
abbrev VN : View sig .tc .vmem S2048x256 .f32 := scN.view
abbrev VD : View sig .tc .vmem S2048x1 .f32 := scD.view

/-- The output block at a point that stores nothing into it: nothing consults it. -/
def idleO : Vec F S2048x256 .f32 := VN.read (Elt F) (VN.writes (Elt F) VN.junk [])

/-- In case A the stored pieces cover the numerator accumulator. -/
theorem coverA_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) (y : S2048x256.Idx) :
    ∃ pc ∈ (kernelRunA c i arg2 harg2 arg3 harg3 arg4 harg4 arg5 harg5 arg6 harg6 arg7 harg7 hc0 hc1 x0 x1 x2).1, y ∈ pc.1.set :=
  View.cover_of_tiledL (kernelRunA c i arg2 harg2 arg3 harg3 arg4 harg4 arg5 harg5 arg6 harg6 arg7 harg7 hc0 hc1 x0 x1 x2).1 S2048x256.size (by sl_kernel_rfl) y

/-- What case A leaves in the numerator accumulator: its pieces read back. -/
def soutA_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) : Vec F S2048x256 .f32 :=
  VN.read (Elt F) (VN.writes (Elt F) VN.junk (kernelRunA c i arg2 harg2 arg3 harg3 arg4 harg4 arg5 harg5 arg6 harg6 arg7 harg7 hc0 hc1 x0 x1 x2).1)

/-- In case A the stored pieces cover the denominator accumulator. -/
theorem coverA_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) (y : S2048x1.Idx) :
    ∃ pc ∈ (kernelRunA c i arg2 harg2 arg3 harg3 arg4 harg4 arg5 harg5 arg6 harg6 arg7 harg7 hc0 hc1 x0 x1 x2).2.1, y ∈ pc.1.set :=
  View.cover_of_tiledL (kernelRunA c i arg2 harg2 arg3 harg3 arg4 harg4 arg5 harg5 arg6 harg6 arg7 harg7 hc0 hc1 x0 x1 x2).2.1 S2048x1.size (by sl_kernel_rfl) y

/-- What case A leaves in the denominator accumulator: its pieces read back. -/
def soutA_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) : Vec F S2048x1 .f32 :=
  VD.read (Elt F) (VD.writes (Elt F) VD.junk (kernelRunA c i arg2 harg2 arg3 harg3 arg4 harg4 arg5 harg5 arg6 harg6 arg7 harg7 hc0 hc1 x0 x1 x2).2.1)

/-- In case B the stored pieces cover the numerator accumulator. -/
theorem coverB_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) (y : S2048x256.Idx) :
    ∃ pc ∈ (kernelRunB c i arg2 harg2 arg3 harg3 arg4 harg4 arg5 harg5 arg6 harg6 arg7 harg7 hc0 hc1 x0 x1 x2 xs0 xs1).1, y ∈ pc.1.set :=
  View.cover_of_tiledL (kernelRunB c i arg2 harg2 arg3 harg3 arg4 harg4 arg5 harg5 arg6 harg6 arg7 harg7 hc0 hc1 x0 x1 x2 xs0 xs1).1 S2048x256.size (by sl_kernel_rfl) y

/-- What case B leaves in the numerator accumulator: its pieces read back. -/
def soutB_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) : Vec F S2048x256 .f32 :=
  VN.read (Elt F) (VN.writes (Elt F) VN.junk (kernelRunB c i arg2 harg2 arg3 harg3 arg4 harg4 arg5 harg5 arg6 harg6 arg7 harg7 hc0 hc1 x0 x1 x2 xs0 xs1).1)

/-- In case B the stored pieces cover the denominator accumulator. -/
theorem coverB_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) (y : S2048x1.Idx) :
    ∃ pc ∈ (kernelRunB c i arg2 harg2 arg3 harg3 arg4 harg4 arg5 harg5 arg6 harg6 arg7 harg7 hc0 hc1 x0 x1 x2 xs0 xs1).2.1, y ∈ pc.1.set :=
  View.cover_of_tiledL (kernelRunB c i arg2 harg2 arg3 harg3 arg4 harg4 arg5 harg5 arg6 harg6 arg7 harg7 hc0 hc1 x0 x1 x2 xs0 xs1).2.1 S2048x1.size (by sl_kernel_rfl) y

/-- What case B leaves in the denominator accumulator: its pieces read back. -/
def soutB_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) : Vec F S2048x1 .f32 :=
  VD.read (Elt F) (VD.writes (Elt F) VD.junk (kernelRunB c i arg2 harg2 arg3 harg3 arg4 harg4 arg5 harg5 arg6 harg6 arg7 harg7 hc0 hc1 x0 x1 x2 xs0 xs1).2.1)

/-- In case C the stored pieces cover the output block. -/
theorem coverC_O (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) (y : S2048x256.Idx) :
    ∃ pc ∈ (kernelRunC c i arg2 harg2 arg3 harg3 arg4 harg4 arg5 harg5 arg6 harg6 arg7 harg7 hc0 hc1 x0 x1 x2 xs0 xs1).1, y ∈ pc.1.set :=
  View.cover_of_tiledL (kernelRunC c i arg2 harg2 arg3 harg3 arg4 harg4 arg5 harg5 arg6 harg6 arg7 harg7 hc0 hc1 x0 x1 x2 xs0 xs1).1 S2048x256.size (by sl_kernel_rfl) y

/-- What case C leaves in the output block: its pieces read back. -/
def soutC_O (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) : Vec F S2048x256 .f32 :=
  VN.read (Elt F) (VN.writes (Elt F) VN.junk (kernelRunC c i arg2 harg2 arg3 harg3 arg4 harg4 arg5 harg5 arg6 harg6 arg7 harg7 hc0 hc1 x0 x1 x2 xs0 xs1).1)

/-- In case C the stored pieces cover the numerator accumulator. -/
theorem coverC_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) (y : S2048x256.Idx) :
    ∃ pc ∈ (kernelRunC c i arg2 harg2 arg3 harg3 arg4 harg4 arg5 harg5 arg6 harg6 arg7 harg7 hc0 hc1 x0 x1 x2 xs0 xs1).2.1, y ∈ pc.1.set :=
  View.cover_of_tiledL (kernelRunC c i arg2 harg2 arg3 harg3 arg4 harg4 arg5 harg5 arg6 harg6 arg7 harg7 hc0 hc1 x0 x1 x2 xs0 xs1).2.1 S2048x256.size (by sl_kernel_rfl) y

/-- What case C leaves in the numerator accumulator: its pieces read back. -/
def soutC_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) : Vec F S2048x256 .f32 :=
  VN.read (Elt F) (VN.writes (Elt F) VN.junk (kernelRunC c i arg2 harg2 arg3 harg3 arg4 harg4 arg5 harg5 arg6 harg6 arg7 harg7 hc0 hc1 x0 x1 x2 xs0 xs1).2.1)

/-- In case C the stored pieces cover the denominator accumulator. -/
theorem coverC_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) (y : S2048x1.Idx) :
    ∃ pc ∈ (kernelRunC c i arg2 harg2 arg3 harg3 arg4 harg4 arg5 harg5 arg6 harg6 arg7 harg7 hc0 hc1 x0 x1 x2 xs0 xs1).2.2.1, y ∈ pc.1.set :=
  View.cover_of_tiledL (kernelRunC c i arg2 harg2 arg3 harg3 arg4 harg4 arg5 harg5 arg6 harg6 arg7 harg7 hc0 hc1 x0 x1 x2 xs0 xs1).2.2.1 S2048x1.size (by sl_kernel_rfl) y

/-- What case C leaves in the denominator accumulator: its pieces read back. -/
def soutC_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) : Vec F S2048x1 .f32 :=
  VD.read (Elt F) (VD.writes (Elt F) VD.junk (kernelRunC c i arg2 harg2 arg3 harg3 arg4 harg4 arg5 harg5 arg6 harg6 arg7 harg7 hc0 hc1 x0 x1 x2 xs0 xs1).2.2.1)

/-! ## The cases at a grid point, on the memrefs the body is called with and the blocks it finds -/

def ptA_N (c : Dev nD) (t : Fin cfg0.N) (h0 : t.val % 16 = 0) (h1 : ¬t.val % 16 = 15) : Vec F S2048x256 .f32 :=
  soutA_N c (grid0.coords t) (ms0 t) (hs0 t) (ms1 t) (hs1 t) (ms2 t) (hs2 t) (ms3 t) (hs3 t) scN (Memref.isWhole_whole _) scD (Memref.isWhole_whole _) ((hcondFirst t).mpr h0) (fun h => h1 ((hcondLast t).mp h)) (iblk m c 0 t) (iblk m c 1 t) (iblk m c 2 t)
def ptB_N (c : Dev nD) (t : Fin cfg0.N) (h0 : ¬t.val % 16 = 0) (h1 : ¬t.val % 16 = 15) (xs0 : Vec F S2048x256 .f32) (xs1 : Vec F S2048x1 .f32) : Vec F S2048x256 .f32 :=
  soutB_N c (grid0.coords t) (ms0 t) (hs0 t) (ms1 t) (hs1 t) (ms2 t) (hs2 t) (ms3 t) (hs3 t) scN (Memref.isWhole_whole _) scD (Memref.isWhole_whole _) (fun h => h0 ((hcondFirst t).mp h)) (fun h => h1 ((hcondLast t).mp h)) (iblk m c 0 t) (iblk m c 1 t) (iblk m c 2 t) xs0 xs1
def ptC_N (c : Dev nD) (t : Fin cfg0.N) (h0 : ¬t.val % 16 = 0) (h1 : t.val % 16 = 15) (xs0 : Vec F S2048x256 .f32) (xs1 : Vec F S2048x1 .f32) : Vec F S2048x256 .f32 :=
  soutC_N c (grid0.coords t) (ms0 t) (hs0 t) (ms1 t) (hs1 t) (ms2 t) (hs2 t) (ms3 t) (hs3 t) scN (Memref.isWhole_whole _) scD (Memref.isWhole_whole _) (fun h => h0 ((hcondFirst t).mp h)) ((hcondLast t).mpr h1) (iblk m c 0 t) (iblk m c 1 t) (iblk m c 2 t) xs0 xs1
def ptA_D (c : Dev nD) (t : Fin cfg0.N) (h0 : t.val % 16 = 0) (h1 : ¬t.val % 16 = 15) : Vec F S2048x1 .f32 :=
  soutA_D c (grid0.coords t) (ms0 t) (hs0 t) (ms1 t) (hs1 t) (ms2 t) (hs2 t) (ms3 t) (hs3 t) scN (Memref.isWhole_whole _) scD (Memref.isWhole_whole _) ((hcondFirst t).mpr h0) (fun h => h1 ((hcondLast t).mp h)) (iblk m c 0 t) (iblk m c 1 t) (iblk m c 2 t)
def ptB_D (c : Dev nD) (t : Fin cfg0.N) (h0 : ¬t.val % 16 = 0) (h1 : ¬t.val % 16 = 15) (xs0 : Vec F S2048x256 .f32) (xs1 : Vec F S2048x1 .f32) : Vec F S2048x1 .f32 :=
  soutB_D c (grid0.coords t) (ms0 t) (hs0 t) (ms1 t) (hs1 t) (ms2 t) (hs2 t) (ms3 t) (hs3 t) scN (Memref.isWhole_whole _) scD (Memref.isWhole_whole _) (fun h => h0 ((hcondFirst t).mp h)) (fun h => h1 ((hcondLast t).mp h)) (iblk m c 0 t) (iblk m c 1 t) (iblk m c 2 t) xs0 xs1
def ptC_D (c : Dev nD) (t : Fin cfg0.N) (h0 : ¬t.val % 16 = 0) (h1 : t.val % 16 = 15) (xs0 : Vec F S2048x256 .f32) (xs1 : Vec F S2048x1 .f32) : Vec F S2048x1 .f32 :=
  soutC_D c (grid0.coords t) (ms0 t) (hs0 t) (ms1 t) (hs1 t) (ms2 t) (hs2 t) (ms3 t) (hs3 t) scN (Memref.isWhole_whole _) scD (Memref.isWhole_whole _) (fun h => h0 ((hcondFirst t).mp h)) ((hcondLast t).mpr h1) (iblk m c 0 t) (iblk m c 1 t) (iblk m c 2 t) xs0 xs1
def ptC_O (c : Dev nD) (t : Fin cfg0.N) (h0 : ¬t.val % 16 = 0) (h1 : t.val % 16 = 15) (xs0 : Vec F S2048x256 .f32) (xs1 : Vec F S2048x1 .f32) : Vec F S2048x256 .f32 :=
  soutC_O c (grid0.coords t) (ms0 t) (hs0 t) (ms1 t) (hs1 t) (ms2 t) (hs2 t) (ms3 t) (hs3 t) scN (Memref.isWhole_whole _) scD (Memref.isWhole_whole _) (fun h => h0 ((hcondFirst t).mp h)) ((hcondLast t).mpr h1) (iblk m c 0 t) (iblk m c 1 t) (iblk m c 2 t) xs0 xs1

/-! ## Point by point -/

/-- After the body at point n: the output block, the numerator accumulator, the denominator accumulator. -/
def outsAt (c : Dev nD) : (n : ℕ) → n < cfg0.N → Vec F S2048x256 .f32 × Vec F S2048x256 .f32 × Vec F S2048x1 .f32
  | 0, hn => (idleO, ptA_N m c ⟨0, hn⟩ (Nat.zero_mod _) (show ¬(0 % 16 = 15) by decide), ptA_D m c ⟨0, hn⟩ (Nat.zero_mod _) (show ¬(0 % 16 = 15) by decide))
  | n + 1, hn =>
    if h0 : (n + 1) % 16 = 0 then
      if h1 : (n + 1) % 16 = 15 then False.elim (by omega)
      else (idleO, ptA_N m c ⟨n + 1, hn⟩ h0 h1, ptA_D m c ⟨n + 1, hn⟩ h0 h1)
    else
      if h1 : (n + 1) % 16 = 15 then
        (ptC_O m c ⟨n + 1, hn⟩ h0 h1 (outsAt c n (Nat.lt_of_succ_lt hn)).2.1 (outsAt c n (Nat.lt_of_succ_lt hn)).2.2,
         ptC_N m c ⟨n + 1, hn⟩ h0 h1 (outsAt c n (Nat.lt_of_succ_lt hn)).2.1 (outsAt c n (Nat.lt_of_succ_lt hn)).2.2,
         ptC_D m c ⟨n + 1, hn⟩ h0 h1 (outsAt c n (Nat.lt_of_succ_lt hn)).2.1 (outsAt c n (Nat.lt_of_succ_lt hn)).2.2)
      else
        (idleO,
         ptB_N m c ⟨n + 1, hn⟩ h0 h1 (outsAt c n (Nat.lt_of_succ_lt hn)).2.1 (outsAt c n (Nat.lt_of_succ_lt hn)).2.2,
         ptB_D m c ⟨n + 1, hn⟩ h0 h1 (outsAt c n (Nat.lt_of_succ_lt hn)).2.1 (outsAt c n (Nat.lt_of_succ_lt hn)).2.2)

/-- What the point before left (used at every point but the first of a row tile). -/
abbrev prevAt (c : Dev nD) (t : Fin cfg0.N) := outsAt m c (t.val - 1) (Nat.lt_of_le_of_lt (Nat.sub_le _ _) t.isLt)

theorem outsAt_A (c : Dev nD) (t : Fin cfg0.N) (h0 : t.val % 16 = 0) (h1 : ¬t.val % 16 = 15) :
    outsAt m c t.val t.isLt = (idleO, ptA_N m c t h0 h1, ptA_D m c t h0 h1) := by
  obtain ⟨n, hn⟩ := t
  cases n with
  | zero => exact rfl
  | succ n => exact (dif_pos h0).trans ((dif_neg h1).trans rfl)

theorem outsAt_B (c : Dev nD) (t : Fin cfg0.N) (h0 : ¬t.val % 16 = 0) (h1 : ¬t.val % 16 = 15) :
    outsAt m c t.val t.isLt = (idleO, ptB_N m c t h0 h1 (prevAt m c t).2.1 (prevAt m c t).2.2, ptB_D m c t h0 h1 (prevAt m c t).2.1 (prevAt m c t).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 16 = 0) (h1 : t.val % 16 = 15) :
    outsAt m c t.val t.isLt = (ptC_O m c t h0 h1 (prevAt m c t).2.1 (prevAt m c t).2.2, ptC_N m c t h0 h1 (prevAt m c t).2.1 (prevAt m c t).2.2, ptC_D m c t h0 h1 (prevAt m c t).2.1 (prevAt m c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- The kernel's own buffers, the two accumulators, each at some contents: what the call hands the body. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scN fullShare d) ∗ (∃ d, owns (c : Thread nD τ) scD fullShare d)) := by
  rw [scopedRest0_eq]; simp only [scN, scD, owns_whole]; try rfl

/-- Before point n: at the start what the call hands the body; afterwards the two accumulators at what point n - 1 left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scN fullShare ((outsAt m c n hn).2.1) ∗ owns (c : Thread nD τ) scD fullShare ((outsAt m c n hn).2.2))

theorem PhiS_zero (c : Dev nD) (n : ℕ) (h : n ≤ cfg0.N) (hz : n = 0) : PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scN fullShare ((outsAt m c n hn).2.1) ∗ owns (c : Thread nD τ) scD fullShare ((outsAt m c n hn).2.2)) := rfl

theorem PhiS_pos (c : Dev nD) (n : ℕ) (h : n ≤ cfg0.N) (hz : n ≠ 0) :
    PhiS m c n h = iprop(owns (c : Thread nD τ) scN fullShare ((outsAt m c (n - 1) (by omega)).2.1) ∗ owns (c : Thread nD τ) scD fullShare ((outsAt m c (n - 1) (by omega)).2.2)) := by
  cases n with
  | zero => exact absurd rfl hz
  | succ n => rfl

/-- The proof data on core c: the arrays as the call finds them; each input's buffer left at its block; the output's at
    `outsAt`; the invariant `PhiS`; nothing owed; the argument array, which windows 0 and 1 both read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.Kernel.Hand

end
-- ==== Proof.KWBody.lean ====
/-
  The body's obligation at every grid point. The point's column tile decides the case; the inputs' buffers hold their
  blocks; the invariant lends the two accumulators (at anything before the very first point, afterwards at what the point
  before left) and takes them back at this point's contents; an output block the case does not store is handed back as found.
-/
import proofs.«159248_j63376537420539_2_alg».proof.Proof.KWData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [Dat.leavesExact_idle (dats m 0 c) 3 t (idleAt3 t (fun h => h1 ((hcondLast t).mp h))) (noFlush3 t (fun h => h1 ((hcondLast t).mp h)))]
      rw [outsAt_A m c t h0 h1]
      unfold ptA_N ptA_D soutA_N soutA_D; (try dsimp only)
      by_cases hz : t.val = 0
      ·
        rw [PhiS_castSucc m c t, PhiS_zero m c _ _ hz, scoped0_eq]
        iintro ⟨⟨HSN, HSD⟩, Ho, ⟨%d0, H0⟩, ⟨%d1, H1⟩, ⟨%d2, H2⟩, ⟨%d3, H3⟩⟩
        iapply ((kernelRunA c (grid0.coords t) _ _ _ _ _ _ _ _ _ _ _ _ ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HSN]; · iexact HSN
        isplitl [HSD]; · iexact HSD
        iintro ⟨H0, H1, H2, H3, ⟨%esN, HSN⟩, ⟨%esD, HSD⟩⟩
        isplitl [HSN HSD]
        · isplitl [HSN]
          · unfold owns; iexists _; isplitr
            swap; · iexact HSN
            ipureintro; exact View.read_writes_of_cover _ _ _ _ _ (coverA_N c _ _ _ _ _ _ _ _ _ _ _ _ _ _ _ _ _ _)
          · unfold owns; iexists _; isplitr
            swap; · iexact HSD
            ipureintro; exact View.read_writes_of_cover _ _ _ _ _ (coverA_D c _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [PhiS_castSucc m c t, PhiS_pos m c _ _ hz]
        iintro ⟨⟨HSN, HSD⟩, Ho, ⟨%d0, H0⟩, ⟨%d1, H1⟩, ⟨%d2, H2⟩, ⟨%d3, H3⟩⟩
        iapply ((kernelRunA c (grid0.coords t) _ _ _ _ _ _ _ _ _ _ _ _ ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HSN]; · iexists _; iexact HSN
        isplitl [HSD]; · iexists _; iexact HSD
        iintro ⟨H0, H1, H2, H3, ⟨%esN, HSN⟩, ⟨%esD, HSD⟩⟩
        isplitl [HSN HSD]
        · isplitl [HSN]
          · unfold owns; iexists _; isplitr
            swap; · iexact HSN
            ipureintro; exact View.read_writes_of_cover _ _ _ _ _ (coverA_N c _ _ _ _ _ _ _ _ _ _ _ _ _ _ _ _ _ _)
          · unfold owns; iexists _; isplitr
            swap; · iexact HSD
            ipureintro; exact View.read_writes_of_cover _ _ _ _ _ (coverA_D c _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 16 = 15
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t ((hcondLast t).mpr h1)], after3]
      rw [outsAt_C m c t h0 h1]
      unfold ptC_O ptC_N ptC_D soutC_O soutC_N soutC_D; (try dsimp only)
      by_cases hz : t.val = 0
      · exfalso; omega
      ·
        rw [PhiS_castSucc m c t, PhiS_pos m c _ _ hz]
        iintro ⟨⟨HSN, HSD⟩, Ho, ⟨%d0, H0⟩, ⟨%d1, H1⟩, ⟨%d2, H2⟩, ⟨%d3, H3⟩⟩
        iapply ((kernelRunC c (grid0.coords t) _ _ _ _ _ _ _ _ _ _ _ _ (fun h => h0 ((hcondFirst t).mp h)) ((hcondLast t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HSN]; · iexact HSN
        isplitl [HSD]; · iexact HSD
        iintro ⟨H0, H1, H2, ⟨%e3, H3⟩, ⟨%esN, HSN⟩, ⟨%esD, HSD⟩⟩
        isplitl [HSN HSD]
        · isplitl [HSN]
          · unfold owns; iexists _; isplitr
            swap; · iexact HSN
            ipureintro; exact View.read_writes_of_cover _ _ _ _ _ (coverC_N c _ _ _ _ _ _ _ _ _ _ _ _ _ _ _ _ _ _ _ _)
          · unfold owns; iexists _; isplitr
            swap; · iexact HSD
            ipureintro; exact View.read_writes_of_cover _ _ _ _ _ (coverC_D c _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverC_O c _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [Dat.leavesExact_idle (dats m 0 c) 3 t (idleAt3 t (fun h => h1 ((hcondLast t).mp h))) (noFlush3 t (fun h => h1 ((hcondLast t).mp h)))]
      rw [outsAt_B m c t h0 h1]
      unfold ptB_N ptB_D soutB_N soutB_D; (try dsimp only)
      by_cases hz : t.val = 0
      · exfalso; omega
      ·
        rw [PhiS_castSucc m c t, PhiS_pos m c _ _ hz]
        iintro ⟨⟨HSN, HSD⟩, Ho, ⟨%d0, H0⟩, ⟨%d1, H1⟩, ⟨%d2, H2⟩, ⟨%d3, H3⟩⟩
        iapply ((kernelRunB c (grid0.coords t) _ _ _ _ _ _ _ _ _ _ _ _ (fun h => h0 ((hcondFirst t).mp h)) (fun h => h1 ((hcondLast t).mp h)) (iblk m c 0 t) (iblk m c 1 t) (iblk m c 2 t) _ _).2.2 _ Set.univ _)
        isplitl [H0]; · iexact H0
        isplitl [H1]; · iexact H1
        isplitl [H2]; · iexact H2
        isplitl [H3]; · iexact H3
        isplitl [HSN]; · iexact HSN
        isplitl [HSD]; · iexact HSD
        iintro ⟨H0, H1, H2, H3, ⟨%esN, HSN⟩, ⟨%esD, HSD⟩⟩
        isplitl [HSN HSD]
        · isplitl [HSN]
          · unfold owns; iexists _; isplitr
            swap; · iexact HSN
            ipureintro; exact View.read_writes_of_cover _ _ _ _ _ (coverB_N c _ _ _ _ _ _ _ _ _ _ _ _ _ _ _ _ _ _ _ _)
          · unfold owns; iexists _; isplitr
            swap; · iexact HSD
            ipureintro; exact View.read_writes_of_cover _ _ _ _ _ (coverB_D c _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the call hands the body is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped0_eq]
  iintro ⟨HSN, HSD⟩
  isplitl [HSN]
  · iexists _; iexact HSN
  · iexists _; iexact HSD

end Cert.Kernel.Hand

end
-- ==== Proof.KWSplit.lean ====
/-
  The arrays at the call's entry. The call has four windows over three arrays: windows 0 and 1 both read the argument
  array, window 2 reads its narrowed copy, and window 3 writes the result array. When the call is entered each of the
  three buffers is held whole at the full share. The full share is the composite of its left and right halves, so the
  argument array's buffer is dealt to windows 0 and 1 as those two halves, each at the same contents; the other two
  buffers go whole to windows 2 and 3.
-/
import proofs.«159248_j63376537420539_2_alg».proof.Proof.KWBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array at the call's entry: the array is a whole buffer, so the window holds the whole buffer, at its
    share, at the contents the call finds there. -/
theorem arr_piece (c : Dev nD) (dat : Dat τ (Elt F) Unit ℕ (UR sig nD τ) ℕ cfg0 c)
    (hA : ∀ w, dat.A w = V m c (Pipeline.arrRef spec0 w)) (w : Fin 4) (q : PosShare TreeShare) (hs : dat.share w = q) :
    ((cfg0.win w).arr.view.loc (c.tc : Thread nD τ) ↦[(cfg0.win w).arr.view.set]{dat.share w} dat.arrAt w 0 : sProp 𝕄)
      = ((c.tc : Thread nD τ).loc (Pipeline.arrRef spec0 w) ↦{q} V m c (Pipeline.arrRef spec0 w)) := by
  rw [(arr_whole0 w).set_eq_univ, hs]
  show (_ ↦{q} dat.A w) = _
  rw [hA w]

/-- The buffers behind the four windows' arrays, each whole at the full share, make the windows' arrays at entry: the
    argument array, read by windows 0 and 1, is dealt to them as the two halves of the full share; the narrowed copy
    goes whole to window 2 and the result array whole to the output window 3. -/
theorem hsplit_of (c : Dev nD) (dat : Dat τ (Elt F) Unit ℕ (UR sig nD τ) ℕ cfg0 c)
    (hA : ∀ w, dat.A w = V m c (Pipeline.arrRef spec0 w))
    (hq0 : dat.q 0 = fullShare.left) (hq1 : dat.q 1 = fullShare.right) (hq2 : dat.q 2 = fullShare) :
    (Pipeline.arrBufs spec0 c (V m c) : sProp 𝕄) ⊢ dat.arrays (dat.arrAt · 0) := by
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_pos (by decide)]
  unfold Pipeline.arrBufs Dat.arrays
  rw [bigSep_W0, bigSep_eq_bigSepL_of_eq [main_arg0, main_v0, main_v1] (by decide) (by decide)]
  beta_reduce
  rw [arr_piece m c dat hA 0 _ s0, arr_piece m c dat hA 1 _ s1, arr_piece m c dat hA 2 _ s2, arr_piece m c dat hA 3 _ s3]
  show (iprop(((c.tc : Thread nD τ).loc main_arg0 ↦{fullShare} V m c main_arg0)
          ∗ ((c.tc : Thread nD τ).loc main_v0 ↦{fullShare} V m c main_v0)
          ∗ ((c.tc : Thread nD τ).loc main_v1 ↦{fullShare} V m c main_v1)) : sProp 𝕄)
      ⊢ iprop(((c.tc : Thread nD τ).loc main_arg0 ↦{fullShare.left} V m c main_arg0)
          ∗ ((c.tc : Thread nD τ).loc main_arg0 ↦{fullShare.right} V m c main_arg0)
          ∗ ((c.tc : Thread nD τ).loc main_v0 ↦{fullShare} V m c main_v0)
          ∗ ((c.tc : Thread nD τ).loc main_v1 ↦{fullShare} V m c main_v1))
  iintro ⟨H0, H1, H2⟩
  ihave H0 := (pointsTo_share (PosShare.mem_left_op_right fullShare)).1 $$ H0
  icases H0 with ⟨Hl, Hr⟩
  isplitl [Hl]; · iexact Hl
  isplitl [Hr]; · iexact Hr
  isplitl [H1]; · iexact H1
  iexact H2

end Cert.Kernel.Hand

end
-- ==== Proof.KWFrame.lean ====
/-
  The run of the whole program: the narrowing, then the call over its 64 grid points. Every weakly fair execution ends,
  faults nowhere, and leaves each windowed array at what the proof data computes: an input array as it was, the output
  array overwritten block by block by what the body left at each write-back.
-/
import proofs.«159248_j63376537420539_2_alg».proof.Proof.KWBody
import proofs.«159248_j63376537420539_2_alg».proof.Proof.KWSplit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- Every weakly fair execution of the program terminates without a fault with every windowed array at the proof data's
    final contents. -/
theorem run_main : θ_run defs (onTc (τ := τ) (main (F := F))) ⟨m, fun _ => 0, ρ⟩
    (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := fun c => hsplit_of m c (dats m 0 c) (A_eq m c) rfl rfl rfl)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun _ _ => True)
    (hY := fun c s' => by
      iintro ⟨-, -, HSI⟩
      imodintro
      isplitr; · ipureintro; trivial
      iexact HSI)
    (hQ := fun s h c w => (h c).1 w)

/-- The frame: the argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans ((A_eq m c 0).trans (V_main_arg0 m c)))) (run_main m ρ)

/-- The result array ends at the proof data's final contents of the output window, the argument array as launched. -/
theorem run_out : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)) :=
  (θ_run defs _ _).mono (fun _ h c => ⟨(h c) 3, ((h c) 0).trans (((dats m 0 c).arrAt_in 0 rfl _).trans ((A_eq m c 0).trans (V_main_arg0 m c)))⟩) (run_main m ρ)

end Cert.Kernel.Hand

end
-- ==== Proof.KIBase.lean ====
/-
  What the kernel's frame is stated over. The program is one narrowing of the argument array followed by the call; the
  call runs a 4 × 16 grid, point t being row tile t / 16 and column tile t % 16. The body resets its two accumulators at
  column tile 0, adds the tile's contribution at every point, and stores the output block at column tile 15; so the
  output window is idle, and not written back, at every other point.
-/
import proofs.«159248_j63376537420539_2_alg».proof.Proof.Gen.KernelIdeal.Launch
import proofs.«159248_j63376537420539_2_alg».proof.Proof.Gen.KernelIdeal.Skeleton
import proofs.«159248_j63376537420539_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the call -/

/-- The buffers' contents when the call is entered: the launch contents after the narrowing of the argument. -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The program reduces to the call, entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The narrowing writes its own result only: the argument array is as launched. -/
theorem V_main_arg0 (c : Dev nD) : V m c main_arg0 = m ((c : Thread nD τ).loc main_arg0) := by
  dsimp only [V, V0, hostOps0]; after_results

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, decided over the grid -/

/-- The accumulators are reset: the column tile is 0. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- The output block is stored: the column tile is 15. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Off the last column tile the body stores nothing into the output window, -/
theorem idleAt3 : ∀ t : Fin cfg0.N, ¬condLast (grid0.coords t) → cfg0.idle 3 (grid0.coords t) = true := by decide +kernel
/-- and the block is not written back there. -/
theorem noFlush3 : ∀ t : Fin cfg0.N, ¬condLast (grid0.coords t) → (cfg0.win 3).flush t = false := by decide +kernel
/-- At the last column tile the window is live. -/
theorem liveAt3 : ∀ t : Fin cfg0.N, condLast (grid0.coords t) → cfg0.idle 3 (grid0.coords t) = false := by decide +kernel

/-! ## The memrefs the body is called with -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
/-- The numerator accumulator and the denominator accumulator: whole buffers of the kernel's own. -/
abbrev scN : Memref sig .tc .vmem S2048x256 .f32 := Memref.whole cc0_scratch0
abbrev scD : Memref sig .tc .vmem S2048x1 .f32 := Memref.whole cc0_scratch1

/-- What the call hands the body beside the windows: the two accumulators at some contents and the generator register. -/
theorem PhiA0_eq (c : Dev nD) :
    (Pipeline.ΦA spec0 c : sProp 𝕄)
      = iprop(iprop((∃ d, owns (c : Thread nD τ) scN fullShare d) ∗ (∃ d, owns (c : Thread nD τ) scD fullShare d)) ∗ (∃ r, prngReg c r)) := by
  unfold Pipeline.ΦA; rw [scopedRest0_eq]; simp only [scN, scD, owns_whole]; try rfl

end Cert.KernelIdeal.Hand

end
-- ==== Proof.KIRunA.lean ====
/-
  The body at a point where the column tile is 0 and not 15: both accumulators, found at anything, are reset and the tile's contribution added; the output block is left as found. What each buffer ends with is found by running the body: a list of stored
  pieces per buffer.
-/
import proofs.«159248_j63376537420539_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on any whole memrefs: the inputs' blocks come back as they were; each buffer the body stores
    into comes back with its pieces written. -/
noncomputable def kernelRunA (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) :
    Σ' (LS0 : List (View.Piece (Elt F) S2048x256 .f32)), { LS1 : List (View.Piece (Elt F) S2048x1 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%d6, %f6, -, HS0⟩, ⟨%d7, %f7, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRunB.lean ====
/-
  The body at a point where the column tile is neither 0 nor 15: the tile's contribution is added to both accumulators as the point before left them; the output block is left as found. What each buffer ends with is found by running the body: a list of stored
  pieces per buffer.
-/
import proofs.«159248_j63376537420539_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on any whole memrefs: the inputs' blocks come back as they were; each buffer the body stores
    into comes back with its pieces written. -/
noncomputable def kernelRunB (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) :
    Σ' (LS0 : List (View.Piece (Elt F) S2048x256 .f32)), { LS1 : List (View.Piece (Elt F) S2048x1 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7) K } := by
  refine ⟨?_, ?_, fun xi3 E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f6, %hf6, HS0⟩, ⟨%f7, %hf7, HS1⟩, Hk⟩
    obtain rfl := harg2.eq_unread hf0; obtain rfl := harg3.eq_unread hf1; obtain rfl := harg4.eq_unread hf2; obtain rfl := harg5.eq_unread hf3; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRunC.lean ====
/-
  The body at a point where the column tile is 15: the tile's contribution is added to both accumulators as the point before left them, and the output block, found at anything, is stored. What each buffer ends with is found by running the body: a list of stored
  pieces per buffer.
-/
import proofs.«159248_j63376537420539_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on any whole memrefs: the inputs' blocks come back as they were; each buffer the body stores
    into comes back with its pieces written. -/
noncomputable def kernelRunC (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) :
    Σ' (L3 : List (View.Piece (Elt F) S2048x256 .f32)) (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7) K } := by
  refine ⟨?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%f6, %hf6, HS0⟩, ⟨%f7, %hf7, HS1⟩, Hk⟩
    obtain rfl := harg2.eq_unread hf0; obtain rfl := harg3.eq_unread hf1; obtain rfl := harg4.eq_unread hf2; obtain rfl := harg6.eq_unread hf6; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KIData.lean ====
/-
  What the body leaves, case by case and then point by point. In each case every buffer the body stores into is covered by
  the pieces it stored, so its contents afterwards are those pieces read back. Point by point: the numerator and
  denominator accumulators after point n are the case's result over what point n - 1 left (over nothing at column tile 0),
  and the output block is defined at the points of column tile 15. The accumulators travel in the body's invariant; the
  argument array, read by two windows, is held half by each.
-/
import proofs.«159248_j63376537420539_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the accumulators' and the output block's contents are stated. -/
abbrev VN : View sig .tc .vmem S2048x256 .f32 := scN.view
abbrev VD : View sig .tc .vmem S2048x1 .f32 := scD.view

/-- The output block at a point that stores nothing into it: nothing consults it. -/
def idleO : Vec F S2048x256 .f32 := VN.read (Elt F) (VN.writes (Elt F) VN.junk [])

/-- In case A the stored pieces cover the numerator accumulator. -/
theorem coverA_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) (y : S2048x256.Idx) :
    ∃ pc ∈ (kernelRunA c i arg2 harg2 arg3 harg3 arg4 harg4 arg5 harg5 arg6 harg6 arg7 harg7 hc0 hc1 x0 x1 x2).1, y ∈ pc.1.set :=
  View.cover_of_tiledL (kernelRunA c i arg2 harg2 arg3 harg3 arg4 harg4 arg5 harg5 arg6 harg6 arg7 harg7 hc0 hc1 x0 x1 x2).1 S2048x256.size (by sl_kernel_rfl) y

/-- What case A leaves in the numerator accumulator: its pieces read back. -/
def soutA_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) : Vec F S2048x256 .f32 :=
  VN.read (Elt F) (VN.writes (Elt F) VN.junk (kernelRunA c i arg2 harg2 arg3 harg3 arg4 harg4 arg5 harg5 arg6 harg6 arg7 harg7 hc0 hc1 x0 x1 x2).1)

/-- In case A the stored pieces cover the denominator accumulator. -/
theorem coverA_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) (y : S2048x1.Idx) :
    ∃ pc ∈ (kernelRunA c i arg2 harg2 arg3 harg3 arg4 harg4 arg5 harg5 arg6 harg6 arg7 harg7 hc0 hc1 x0 x1 x2).2.1, y ∈ pc.1.set :=
  View.cover_of_tiledL (kernelRunA c i arg2 harg2 arg3 harg3 arg4 harg4 arg5 harg5 arg6 harg6 arg7 harg7 hc0 hc1 x0 x1 x2).2.1 S2048x1.size (by sl_kernel_rfl) y

/-- What case A leaves in the denominator accumulator: its pieces read back. -/
def soutA_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) : Vec F S2048x1 .f32 :=
  VD.read (Elt F) (VD.writes (Elt F) VD.junk (kernelRunA c i arg2 harg2 arg3 harg3 arg4 harg4 arg5 harg5 arg6 harg6 arg7 harg7 hc0 hc1 x0 x1 x2).2.1)

/-- In case B the stored pieces cover the numerator accumulator. -/
theorem coverB_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) (y : S2048x256.Idx) :
    ∃ pc ∈ (kernelRunB c i arg2 harg2 arg3 harg3 arg4 harg4 arg5 harg5 arg6 harg6 arg7 harg7 hc0 hc1 x0 x1 x2 xs0 xs1).1, y ∈ pc.1.set :=
  View.cover_of_tiledL (kernelRunB c i arg2 harg2 arg3 harg3 arg4 harg4 arg5 harg5 arg6 harg6 arg7 harg7 hc0 hc1 x0 x1 x2 xs0 xs1).1 S2048x256.size (by sl_kernel_rfl) y

/-- What case B leaves in the numerator accumulator: its pieces read back. -/
def soutB_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) : Vec F S2048x256 .f32 :=
  VN.read (Elt F) (VN.writes (Elt F) VN.junk (kernelRunB c i arg2 harg2 arg3 harg3 arg4 harg4 arg5 harg5 arg6 harg6 arg7 harg7 hc0 hc1 x0 x1 x2 xs0 xs1).1)

/-- In case B the stored pieces cover the denominator accumulator. -/
theorem coverB_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) (y : S2048x1.Idx) :
    ∃ pc ∈ (kernelRunB c i arg2 harg2 arg3 harg3 arg4 harg4 arg5 harg5 arg6 harg6 arg7 harg7 hc0 hc1 x0 x1 x2 xs0 xs1).2.1, y ∈ pc.1.set :=
  View.cover_of_tiledL (kernelRunB c i arg2 harg2 arg3 harg3 arg4 harg4 arg5 harg5 arg6 harg6 arg7 harg7 hc0 hc1 x0 x1 x2 xs0 xs1).2.1 S2048x1.size (by sl_kernel_rfl) y

/-- What case B leaves in the denominator accumulator: its pieces read back. -/
def soutB_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) : Vec F S2048x1 .f32 :=
  VD.read (Elt F) (VD.writes (Elt F) VD.junk (kernelRunB c i arg2 harg2 arg3 harg3 arg4 harg4 arg5 harg5 arg6 harg6 arg7 harg7 hc0 hc1 x0 x1 x2 xs0 xs1).2.1)

/-- In case C the stored pieces cover the output block. -/
theorem coverC_O (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) (y : S2048x256.Idx) :
    ∃ pc ∈ (kernelRunC c i arg2 harg2 arg3 harg3 arg4 harg4 arg5 harg5 arg6 harg6 arg7 harg7 hc0 hc1 x0 x1 x2 xs0 xs1).1, y ∈ pc.1.set :=
  View.cover_of_tiledL (kernelRunC c i arg2 harg2 arg3 harg3 arg4 harg4 arg5 harg5 arg6 harg6 arg7 harg7 hc0 hc1 x0 x1 x2 xs0 xs1).1 S2048x256.size (by sl_kernel_rfl) y

/-- What case C leaves in the output block: its pieces read back. -/
def soutC_O (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) : Vec F S2048x256 .f32 :=
  VN.read (Elt F) (VN.writes (Elt F) VN.junk (kernelRunC c i arg2 harg2 arg3 harg3 arg4 harg4 arg5 harg5 arg6 harg6 arg7 harg7 hc0 hc1 x0 x1 x2 xs0 xs1).1)

/-- In case C the stored pieces cover the numerator accumulator. -/
theorem coverC_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) (y : S2048x256.Idx) :
    ∃ pc ∈ (kernelRunC c i arg2 harg2 arg3 harg3 arg4 harg4 arg5 harg5 arg6 harg6 arg7 harg7 hc0 hc1 x0 x1 x2 xs0 xs1).2.1, y ∈ pc.1.set :=
  View.cover_of_tiledL (kernelRunC c i arg2 harg2 arg3 harg3 arg4 harg4 arg5 harg5 arg6 harg6 arg7 harg7 hc0 hc1 x0 x1 x2 xs0 xs1).2.1 S2048x256.size (by sl_kernel_rfl) y

/-- What case C leaves in the numerator accumulator: its pieces read back. -/
def soutC_N (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) : Vec F S2048x256 .f32 :=
  VN.read (Elt F) (VN.writes (Elt F) VN.junk (kernelRunC c i arg2 harg2 arg3 harg3 arg4 harg4 arg5 harg5 arg6 harg6 arg7 harg7 hc0 hc1 x0 x1 x2 xs0 xs1).2.1)

/-- In case C the stored pieces cover the denominator accumulator. -/
theorem coverC_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) (y : S2048x1.Idx) :
    ∃ pc ∈ (kernelRunC c i arg2 harg2 arg3 harg3 arg4 harg4 arg5 harg5 arg6 harg6 arg7 harg7 hc0 hc1 x0 x1 x2 xs0 xs1).2.2.1, y ∈ pc.1.set :=
  View.cover_of_tiledL (kernelRunC c i arg2 harg2 arg3 harg3 arg4 harg4 arg5 harg5 arg6 harg6 arg7 harg7 hc0 hc1 x0 x1 x2 xs0 xs1).2.2.1 S2048x1.size (by sl_kernel_rfl) y

/-- What case C leaves in the denominator accumulator: its pieces read back. -/
def soutC_D (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) : Vec F S2048x1 .f32 :=
  VD.read (Elt F) (VD.writes (Elt F) VD.junk (kernelRunC c i arg2 harg2 arg3 harg3 arg4 harg4 arg5 harg5 arg6 harg6 arg7 harg7 hc0 hc1 x0 x1 x2 xs0 xs1).2.2.1)

/-! ## The cases at a grid point, on the memrefs the body is called with and the blocks it finds -/

def ptA_N (c : Dev nD) (t : Fin cfg0.N) (h0 : t.val % 16 = 0) (h1 : ¬t.val % 16 = 15) : Vec F S2048x256 .f32 :=
  soutA_N c (grid0.coords t) (ms0 t) (hs0 t) (ms1 t) (hs1 t) (ms2 t) (hs2 t) (ms3 t) (hs3 t) scN (Memref.isWhole_whole _) scD (Memref.isWhole_whole _) ((hcondFirst t).mpr h0) (fun h => h1 ((hcondLast t).mp h)) (iblk m c 0 t) (iblk m c 1 t) (iblk m c 2 t)
def ptB_N (c : Dev nD) (t : Fin cfg0.N) (h0 : ¬t.val % 16 = 0) (h1 : ¬t.val % 16 = 15) (xs0 : Vec F S2048x256 .f32) (xs1 : Vec F S2048x1 .f32) : Vec F S2048x256 .f32 :=
  soutB_N c (grid0.coords t) (ms0 t) (hs0 t) (ms1 t) (hs1 t) (ms2 t) (hs2 t) (ms3 t) (hs3 t) scN (Memref.isWhole_whole _) scD (Memref.isWhole_whole _) (fun h => h0 ((hcondFirst t).mp h)) (fun h => h1 ((hcondLast t).mp h)) (iblk m c 0 t) (iblk m c 1 t) (iblk m c 2 t) xs0 xs1
def ptC_N (c : Dev nD) (t : Fin cfg0.N) (h0 : ¬t.val % 16 = 0) (h1 : t.val % 16 = 15) (xs0 : Vec F S2048x256 .f32) (xs1 : Vec F S2048x1 .f32) : Vec F S2048x256 .f32 :=
  soutC_N c (grid0.coords t) (ms0 t) (hs0 t) (ms1 t) (hs1 t) (ms2 t) (hs2 t) (ms3 t) (hs3 t) scN (Memref.isWhole_whole _) scD (Memref.isWhole_whole _) (fun h => h0 ((hcondFirst t).mp h)) ((hcondLast t).mpr h1) (iblk m c 0 t) (iblk m c 1 t) (iblk m c 2 t) xs0 xs1
def ptA_D (c : Dev nD) (t : Fin cfg0.N) (h0 : t.val % 16 = 0) (h1 : ¬t.val % 16 = 15) : Vec F S2048x1 .f32 :=
  soutA_D c (grid0.coords t) (ms0 t) (hs0 t) (ms1 t) (hs1 t) (ms2 t) (hs2 t) (ms3 t) (hs3 t) scN (Memref.isWhole_whole _) scD (Memref.isWhole_whole _) ((hcondFirst t).mpr h0) (fun h => h1 ((hcondLast t).mp h)) (iblk m c 0 t) (iblk m c 1 t) (iblk m c 2 t)
def ptB_D (c : Dev nD) (t : Fin cfg0.N) (h0 : ¬t.val % 16 = 0) (h1 : ¬t.val % 16 = 15) (xs0 : Vec F S2048x256 .f32) (xs1 : Vec F S2048x1 .f32) : Vec F S2048x1 .f32 :=
  soutB_D c (grid0.coords t) (ms0 t) (hs0 t) (ms1 t) (hs1 t) (ms2 t) (hs2 t) (ms3 t) (hs3 t) scN (Memref.isWhole_whole _) scD (Memref.isWhole_whole _) (fun h => h0 ((hcondFirst t).mp h)) (fun h => h1 ((hcondLast t).mp h)) (iblk m c 0 t) (iblk m c 1 t) (iblk m c 2 t) xs0 xs1
def ptC_D (c : Dev nD) (t : Fin cfg0.N) (h0 : ¬t.val % 16 = 0) (h1 : t.val % 16 = 15) (xs0 : Vec F S2048x256 .f32) (xs1 : Vec F S2048x1 .f32) : Vec F S2048x1 .f32 :=
  soutC_D c (grid0.coords t) (ms0 t) (hs0 t) (ms1 t) (hs1 t) (ms2 t) (hs2 t) (ms3 t) (hs3 t) scN (Memref.isWhole_whole _) scD (Memref.isWhole_whole _) (fun h => h0 ((hcondFirst t).mp h)) ((hcondLast t).mpr h1) (iblk m c 0 t) (iblk m c 1 t) (iblk m c 2 t) xs0 xs1
def ptC_O (c : Dev nD) (t : Fin cfg0.N) (h0 : ¬t.val % 16 = 0) (h1 : t.val % 16 = 15) (xs0 : Vec F S2048x256 .f32) (xs1 : Vec F S2048x1 .f32) : Vec F S2048x256 .f32 :=
  soutC_O c (grid0.coords t) (ms0 t) (hs0 t) (ms1 t) (hs1 t) (ms2 t) (hs2 t) (ms3 t) (hs3 t) scN (Memref.isWhole_whole _) scD (Memref.isWhole_whole _) (fun h => h0 ((hcondFirst t).mp h)) ((hcondLast t).mpr h1) (iblk m c 0 t) (iblk m c 1 t) (iblk m c 2 t) xs0 xs1

/-! ## Point by point -/

/-- After the body at point n: the output block, the numerator accumulator, the denominator accumulator. -/
def outsAt (c : Dev nD) : (n : ℕ) → n < cfg0.N → Vec F S2048x256 .f32 × Vec F S2048x256 .f32 × Vec F S2048x1 .f32
  | 0, hn => (idleO, ptA_N m c ⟨0, hn⟩ (Nat.zero_mod _) (show ¬(0 % 16 = 15) by decide), ptA_D m c ⟨0, hn⟩ (Nat.zero_mod _) (show ¬(0 % 16 = 15) by decide))
  | n + 1, hn =>
    if h0 : (n + 1) % 16 = 0 then
      if h1 : (n + 1) % 16 = 15 then False.elim (by omega)
      else (idleO, ptA_N m c ⟨n + 1, hn⟩ h0 h1, ptA_D m c ⟨n + 1, hn⟩ h0 h1)
    else
      if h1 : (n + 1) % 16 = 15 then
        (ptC_O m c ⟨n + 1, hn⟩ h0 h1 (outsAt c n (Nat.lt_of_succ_lt hn)).2.1 (outsAt c n (Nat.lt_of_succ_lt hn)).2.2,
         ptC_N m c ⟨n + 1, hn⟩ h0 h1 (outsAt c n (Nat.lt_of_succ_lt hn)).2.1 (outsAt c n (Nat.lt_of_succ_lt hn)).2.2,
         ptC_D m c ⟨n + 1, hn⟩ h0 h1 (outsAt c n (Nat.lt_of_succ_lt hn)).2.1 (outsAt c n (Nat.lt_of_succ_lt hn)).2.2)
      else
        (idleO,
         ptB_N m c ⟨n + 1, hn⟩ h0 h1 (outsAt c n (Nat.lt_of_succ_lt hn)).2.1 (outsAt c n (Nat.lt_of_succ_lt hn)).2.2,
         ptB_D m c ⟨n + 1, hn⟩ h0 h1 (outsAt c n (Nat.lt_of_succ_lt hn)).2.1 (outsAt c n (Nat.lt_of_succ_lt hn)).2.2)

/-- What the point before left (used at every point but the first of a row tile). -/
abbrev prevAt (c : Dev nD) (t : Fin cfg0.N) := outsAt m c (t.val - 1) (Nat.lt_of_le_of_lt (Nat.sub_le _ _) t.isLt)

theorem outsAt_A (c : Dev nD) (t : Fin cfg0.N) (h0 : t.val % 16 = 0) (h1 : ¬t.val % 16 = 15) :
    outsAt m c t.val t.isLt = (idleO, ptA_N m c t h0 h1, ptA_D m c t h0 h1) := by
  obtain ⟨n, hn⟩ := t
  cases n with
  | zero => exact rfl
  | succ n => exact (dif_pos h0).trans ((dif_neg h1).trans rfl)

theorem outsAt_B (c : Dev nD) (t : Fin cfg0.N) (h0 : ¬t.val % 16 = 0) (h1 : ¬t.val % 16 = 15) :
    outsAt m c t.val t.isLt = (idleO, ptB_N m c t h0 h1 (prevAt m c t).2.1 (prevAt m c t).2.2, ptB_D m c t h0 h1 (prevAt m c t).2.1 (prevAt m c t).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 16 = 0) (h1 : t.val % 16 = 15) :
    outsAt m c t.val t.isLt = (ptC_O m c t h0 h1 (prevAt m c t).2.1 (prevAt m c t).2.2, ptC_N m c t h0 h1 (prevAt m c t).2.1 (prevAt m c t).2.2, ptC_D m c t h0 h1 (prevAt m c t).2.1 (prevAt m c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- The kernel's own buffers, the two accumulators, each at some contents: what the call hands the body. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scN fullShare d) ∗ (∃ d, owns (c : Thread nD τ) scD fullShare d)) := by
  rw [scopedRest0_eq]; simp only [scN, scD, owns_whole]; try rfl

/-- Before point n: at the start what the call hands the body; afterwards the two accumulators at what point n - 1 left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scN fullShare ((outsAt m c n hn).2.1) ∗ owns (c : Thread nD τ) scD fullShare ((outsAt m c n hn).2.2))

theorem PhiS_zero (c : Dev nD) (n : ℕ) (h : n ≤ cfg0.N) (hz : n = 0) : PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scN fullShare ((outsAt m c n hn).2.1) ∗ owns (c : Thread nD τ) scD fullShare ((outsAt m c n hn).2.2)) := rfl

theorem PhiS_pos (c : Dev nD) (n : ℕ) (h : n ≤ cfg0.N) (hz : n ≠ 0) :
    PhiS m c n h = iprop(owns (c : Thread nD τ) scN fullShare ((outsAt m c (n - 1) (by omega)).2.1) ∗ owns (c : Thread nD τ) scD fullShare ((outsAt m c (n - 1) (by omega)).2.2)) := by
  cases n with
  | zero => exact absurd rfl hz
  | succ n => rfl

/-- The proof data on core c: the arrays as the call finds them; each input's buffer left at its block; the output's at
    `outsAt`; the invariant `PhiS`; nothing owed; the argument array, which windows 0 and 1 both read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.KernelIdeal.Hand

end
-- ==== Proof.KIBody.lean ====
/-
  The body's obligation at every grid point. The point's column tile decides the case; the inputs' buffers hold their
  blocks; the invariant lends the two accumulators (at anything before the very first point, afterwards at what the point
  before left) and takes them back at this point's contents; an output block the case does not store is handed back as found.
-/
import proofs.«159248_j63376537420539_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [Dat.leavesExact_idle (dats m 0 c) 3 t (idleAt3 t (fun h => h1 ((hcondLast t).mp h))) (noFlush3 t (fun h => h1 ((hcondLast t).mp h)))]
      rw [outsAt_A m c t h0 h1]
      unfold ptA_N ptA_D soutA_N soutA_D; (try dsimp only)
      by_cases hz : t.val = 0
      ·
        rw [PhiS_castSucc m c t, PhiS_zero m c _ _ hz, scoped0_eq]
        iintro ⟨⟨HSN, HSD⟩, Ho, ⟨%d0, H0⟩, ⟨%d1, H1⟩, ⟨%d2, H2⟩, ⟨%d3, H3⟩⟩
        iapply ((kernelRunA c (grid0.coords t) _ _ _ _ _ _ _ _ _ _ _ _ ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HSN]; · iexact HSN
        isplitl [HSD]; · iexact HSD
        iintro ⟨H0, H1, H2, H3, ⟨%esN, HSN⟩, ⟨%esD, HSD⟩⟩
        isplitl [HSN HSD]
        · isplitl [HSN]
          · unfold owns; iexists _; isplitr
            swap; · iexact HSN
            ipureintro; exact View.read_writes_of_cover _ _ _ _ _ (coverA_N c _ _ _ _ _ _ _ _ _ _ _ _ _ _ _ _ _ _)
          · unfold owns; iexists _; isplitr
            swap; · iexact HSD
            ipureintro; exact View.read_writes_of_cover _ _ _ _ _ (coverA_D c _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [PhiS_castSucc m c t, PhiS_pos m c _ _ hz]
        iintro ⟨⟨HSN, HSD⟩, Ho, ⟨%d0, H0⟩, ⟨%d1, H1⟩, ⟨%d2, H2⟩, ⟨%d3, H3⟩⟩
        iapply ((kernelRunA c (grid0.coords t) _ _ _ _ _ _ _ _ _ _ _ _ ((hcondFirst t).mpr h0) (fun h => h1 ((hcondLast t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HSN]; · iexists _; iexact HSN
        isplitl [HSD]; · iexists _; iexact HSD
        iintro ⟨H0, H1, H2, H3, ⟨%esN, HSN⟩, ⟨%esD, HSD⟩⟩
        isplitl [HSN HSD]
        · isplitl [HSN]
          · unfold owns; iexists _; isplitr
            swap; · iexact HSN
            ipureintro; exact View.read_writes_of_cover _ _ _ _ _ (coverA_N c _ _ _ _ _ _ _ _ _ _ _ _ _ _ _ _ _ _)
          · unfold owns; iexists _; isplitr
            swap; · iexact HSD
            ipureintro; exact View.read_writes_of_cover _ _ _ _ _ (coverA_D c _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 16 = 15
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t ((hcondLast t).mpr h1)], after3]
      rw [outsAt_C m c t h0 h1]
      unfold ptC_O ptC_N ptC_D soutC_O soutC_N soutC_D; (try dsimp only)
      by_cases hz : t.val = 0
      · exfalso; omega
      ·
        rw [PhiS_castSucc m c t, PhiS_pos m c _ _ hz]
        iintro ⟨⟨HSN, HSD⟩, Ho, ⟨%d0, H0⟩, ⟨%d1, H1⟩, ⟨%d2, H2⟩, ⟨%d3, H3⟩⟩
        iapply ((kernelRunC c (grid0.coords t) _ _ _ _ _ _ _ _ _ _ _ _ (fun h => h0 ((hcondFirst t).mp h)) ((hcondLast t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HSN]; · iexact HSN
        isplitl [HSD]; · iexact HSD
        iintro ⟨H0, H1, H2, ⟨%e3, H3⟩, ⟨%esN, HSN⟩, ⟨%esD, HSD⟩⟩
        isplitl [HSN HSD]
        · isplitl [HSN]
          · unfold owns; iexists _; isplitr
            swap; · iexact HSN
            ipureintro; exact View.read_writes_of_cover _ _ _ _ _ (coverC_N c _ _ _ _ _ _ _ _ _ _ _ _ _ _ _ _ _ _ _ _)
          · unfold owns; iexists _; isplitr
            swap; · iexact HSD
            ipureintro; exact View.read_writes_of_cover _ _ _ _ _ (coverC_D c _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverC_O c _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [Dat.leavesExact_idle (dats m 0 c) 3 t (idleAt3 t (fun h => h1 ((hcondLast t).mp h))) (noFlush3 t (fun h => h1 ((hcondLast t).mp h)))]
      rw [outsAt_B m c t h0 h1]
      unfold ptB_N ptB_D soutB_N soutB_D; (try dsimp only)
      by_cases hz : t.val = 0
      · exfalso; omega
      ·
        rw [PhiS_castSucc m c t, PhiS_pos m c _ _ hz]
        iintro ⟨⟨HSN, HSD⟩, Ho, ⟨%d0, H0⟩, ⟨%d1, H1⟩, ⟨%d2, H2⟩, ⟨%d3, H3⟩⟩
        iapply ((kernelRunB c (grid0.coords t) _ _ _ _ _ _ _ _ _ _ _ _ (fun h => h0 ((hcondFirst t).mp h)) (fun h => h1 ((hcondLast t).mp h)) (iblk m c 0 t) (iblk m c 1 t) (iblk m c 2 t) _ _).2.2 _ Set.univ _)
        isplitl [H0]; · iexact H0
        isplitl [H1]; · iexact H1
        isplitl [H2]; · iexact H2
        isplitl [H3]; · iexact H3
        isplitl [HSN]; · iexact HSN
        isplitl [HSD]; · iexact HSD
        iintro ⟨H0, H1, H2, H3, ⟨%esN, HSN⟩, ⟨%esD, HSD⟩⟩
        isplitl [HSN HSD]
        · isplitl [HSN]
          · unfold owns; iexists _; isplitr
            swap; · iexact HSN
            ipureintro; exact View.read_writes_of_cover _ _ _ _ _ (coverB_N c _ _ _ _ _ _ _ _ _ _ _ _ _ _ _ _ _ _ _ _)
          · unfold owns; iexists _; isplitr
            swap; · iexact HSD
            ipureintro; exact View.read_writes_of_cover _ _ _ _ _ (coverB_D c _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the call hands the body is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' contents are forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped0_eq]
  iintro ⟨HSN, HSD⟩
  isplitl [HSN]
  · iexists _; iexact HSN
  · iexists _; iexact HSD

end Cert.KernelIdeal.Hand

end
-- ==== Proof.KISplit.lean ====
/-
  The arrays at the call's entry. The call has four windows over three arrays: windows 0 and 1 both read the argument
  array, window 2 reads its narrowed copy, and window 3 writes the result array. When the call is entered each of the
  three buffers is held whole at the full share. The full share is the composite of its left and right halves, so the
  argument array's buffer is dealt to windows 0 and 1 as those two halves, each at the same contents; the other two
  buffers go whole to windows 2 and 3.
-/
import proofs.«159248_j63376537420539_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array at the call's entry: the array is a whole buffer, so the window holds the whole buffer, at its
    share, at the contents the call finds there. -/
theorem arr_piece (c : Dev nD) (dat : Dat τ (Elt F) Unit ℕ (UR sig nD τ) ℕ cfg0 c)
    (hA : ∀ w, dat.A w = V m c (Pipeline.arrRef spec0 w)) (w : Fin 4) (q : PosShare TreeShare) (hs : dat.share w = q) :
    ((cfg0.win w).arr.view.loc (c.tc : Thread nD τ) ↦[(cfg0.win w).arr.view.set]{dat.share w} dat.arrAt w 0 : sProp 𝕄)
      = ((c.tc : Thread nD τ).loc (Pipeline.arrRef spec0 w) ↦{q} V m c (Pipeline.arrRef spec0 w)) := by
  rw [(arr_whole0 w).set_eq_univ, hs]
  show (_ ↦{q} dat.A w) = _
  rw [hA w]

/-- The buffers behind the four windows' arrays, each whole at the full share, make the windows' arrays at entry: the
    argument array, read by windows 0 and 1, is dealt to them as the two halves of the full share; the narrowed copy
    goes whole to window 2 and the result array whole to the output window 3. -/
theorem hsplit_of (c : Dev nD) (dat : Dat τ (Elt F) Unit ℕ (UR sig nD τ) ℕ cfg0 c)
    (hA : ∀ w, dat.A w = V m c (Pipeline.arrRef spec0 w))
    (hq0 : dat.q 0 = fullShare.left) (hq1 : dat.q 1 = fullShare.right) (hq2 : dat.q 2 = fullShare) :
    (Pipeline.arrBufs spec0 c (V m c) : sProp 𝕄) ⊢ dat.arrays (dat.arrAt · 0) := by
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_pos (by decide)]
  unfold Pipeline.arrBufs Dat.arrays
  rw [bigSep_W0, bigSep_eq_bigSepL_of_eq [main_arg0, main_v0, main_v1] (by decide) (by decide)]
  beta_reduce
  rw [arr_piece m c dat hA 0 _ s0, arr_piece m c dat hA 1 _ s1, arr_piece m c dat hA 2 _ s2, arr_piece m c dat hA 3 _ s3]
  show (iprop(((c.tc : Thread nD τ).loc main_arg0 ↦{fullShare} V m c main_arg0)
          ∗ ((c.tc : Thread nD τ).loc main_v0 ↦{fullShare} V m c main_v0)
          ∗ ((c.tc : Thread nD τ).loc main_v1 ↦{fullShare} V m c main_v1)) : sProp 𝕄)
      ⊢ iprop(((c.tc : Thread nD τ).loc main_arg0 ↦{fullShare.left} V m c main_arg0)
          ∗ ((c.tc : Thread nD τ).loc main_arg0 ↦{fullShare.right} V m c main_arg0)
          ∗ ((c.tc : Thread nD τ).loc main_v0 ↦{fullShare} V m c main_v0)
          ∗ ((c.tc : Thread nD τ).loc main_v1 ↦{fullShare} V m c main_v1))
  iintro ⟨H0, H1, H2⟩
  ihave H0 := (pointsTo_share (PosShare.mem_left_op_right fullShare)).1 $$ H0
  icases H0 with ⟨Hl, Hr⟩
  isplitl [Hl]; · iexact Hl
  isplitl [Hr]; · iexact Hr
  isplitl [H1]; · iexact H1
  iexact H2

end Cert.KernelIdeal.Hand

end
-- ==== Proof.KIFrame.lean ====
/-
  The run of the whole program: the narrowing, then the call over its 64 grid points. Every weakly fair execution ends,
  faults nowhere, and leaves each windowed array at what the proof data computes: an input array as it was, the output
  array overwritten block by block by what the body left at each write-back.
-/
import proofs.«159248_j63376537420539_2_alg».proof.Proof.KIBody
import proofs.«159248_j63376537420539_2_alg».proof.Proof.KISplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- Every weakly fair execution of the program terminates without a fault with every windowed array at the proof data's
    final contents. -/
theorem run_main : θ_run defs (onTc (τ := τ) (main (F := F))) ⟨m, fun _ => 0, ρ⟩
    (fun r => ∀ c : Dev nD, ∀ w, r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := fun c => hsplit_of m c (dats m 0 c) (A_eq m c) rfl rfl rfl)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun _ _ => True)
    (hY := fun c s' => by
      iintro ⟨-, -, HSI⟩
      imodintro
      isplitr; · ipureintro; trivial
      iexact HSI)
    (hQ := fun s h c w => (h c).1 w)

/-- The frame: the argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans ((A_eq m c 0).trans (V_main_arg0 m c)))) (run_main m ρ)

/-- The result array ends at the proof data's final contents of the output window, the argument array as launched. -/
theorem run_out : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)) :=
  (θ_run defs _ _).mono (fun _ h c => ⟨(h c) 3, ((h c) 0).trans (((dats m 0 c).arrAt_in 0 rfl _).trans ((A_eq m c 0).trans (V_main_arg0 m c)))⟩) (run_main m ρ)

end Cert.KernelIdeal.Hand

end
-- ==== Proof.KIPieces.lean ====
/-
  What each case of the body leaves in each buffer, as a value. In every case the last store into a buffer covers the whole
  block from its origin, so the buffer ends at that store's payload, and every load the payload reads is a load of a whole
  block from its origin: of an input's block, of an accumulator as the point before left it, or of an accumulator just
  stored (the zero fill at column tile 0; the accumulated values the final quotient reads at column tile 15). So the
  accumulators end at the accumulation step applied to the blocks (over the zero fill at column tile 0), and the output
  block at column tile 15 ends at the quotient of the two accumulated values. Stated for any float instance.
-/
import proofs.«159248_j63376537420539_2_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The origin of a rank-2 block, however its zeros are spelt. -/
theorem hz2 : (![0, 0] : Fin 2 → Nat) = fun _ => 0 := funext fun a => by fin_cases a <;> rfl

/-- Column tile 0: the numerator accumulator is filled with zeros and then holds the zero block plus the tile's contribution. -/
theorem soutA_N_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) :
    soutA_N c i arg2 harg2 arg3 harg3 arg4 harg4 arg5 harg5 arg6 harg6 arg7 harg7 hc0 hc1 x0 x1 x2 = k0_pay5 x0 x1 x2 (k0_pay1 (F := F)) := by
  unfold soutA_N
  rw [View.read_writes_eq_canon _ _ _ (coverA_N c i arg2 harg2 arg3 harg3 arg4 harg4 arg5 harg5 arg6 harg6 arg7 harg7 hc0 hc1 x0 x1 x2)]
  unfold kernelRunA
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

/-- Column tile 0: the denominator accumulator is filled with zeros and then holds the zero column plus the tile's row sums. -/
theorem soutA_D_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : condFirst i) (hc1 : ¬condLast i)
    (x0 : Vec F S2048x256 .f32) (x1 : Vec F S512x256 .f32) (x2 : Vec F S512x256 .bf16) :
    soutA_D c i arg2 harg2 arg3 harg3 arg4 harg4 arg5 harg5 arg6 harg6 arg7 harg7 hc0 hc1 x0 x1 x2 = k0_pay4 x0 x1 (k0_pay2 (F := F)) := by
  unfold soutA_D
  rw [View.read_writes_eq_canon _ _ _ (coverA_D c i arg2 harg2 arg3 harg3 arg4 harg4 arg5 harg5 arg6 harg6 arg7 harg7 hc0 hc1 x0 x1 x2)]
  unfold kernelRunA
  dsimp only
  sl_unfold_words
  rw [View.canon_cons_unit_zero (S := S2048x1) hz2, View.readCov_unit_zero (S := S2048x1) _ hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

/-- Column tiles 1 to 14: the numerator accumulator holds what it held plus the tile's contribution. -/
theorem soutB_N_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) :
    soutB_N c i arg2 harg2 arg3 harg3 arg4 harg4 arg5 harg5 arg6 harg6 arg7 harg7 hc0 hc1 x0 x1 x2 xs0 xs1 = k0_pay5 x0 x1 x2 xs0 := by
  unfold soutB_N
  rw [View.read_writes_eq_canon _ _ _ (coverB_N c i arg2 harg2 arg3 harg3 arg4 harg4 arg5 harg5 arg6 harg6 arg7 harg7 hc0 hc1 x0 x1 x2 xs0 xs1)]
  unfold kernelRunB
  dsimp only
  sl_unfold_words
  rw [View.canon_unit_zero hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

/-- Column tiles 1 to 14: the denominator accumulator holds what it held plus the tile's row sums. -/
theorem soutB_D_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : ¬condLast i)
    (x0 : Vec F S2048x256 .f32) (x1 : Vec F S512x256 .f32) (x2 : Vec F S512x256 .bf16) (xs0 : Vec F S2048x256 .f32) (xs1 : Vec F S2048x1 .f32) :
    soutB_D c i arg2 harg2 arg3 harg3 arg4 harg4 arg5 harg5 arg6 harg6 arg7 harg7 hc0 hc1 x0 x1 x2 xs0 xs1 = k0_pay4 x0 x1 xs1 := by
  unfold soutB_D
  rw [View.read_writes_eq_canon _ _ _ (coverB_D c i arg2 harg2 arg3 harg3 arg4 harg4 arg5 harg5 arg6 harg6 arg7 harg7 hc0 hc1 x0 x1 x2 xs0 xs1)]
  unfold kernelRunB
  dsimp only
  sl_unfold_words
  rw [View.canon_unit_zero hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

/-- Column tile 15: the numerator accumulator holds what it held plus the tile's contribution. -/
theorem soutC_N_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) :
    soutC_N c i arg2 harg2 arg3 harg3 arg4 harg4 arg5 harg5 arg6 harg6 arg7 harg7 hc0 hc1 x0 x1 x2 xs0 xs1 = k0_pay5 x0 x1 x2 xs0 := by
  unfold soutC_N
  rw [View.read_writes_eq_canon _ _ _ (coverC_N c i arg2 harg2 arg3 harg3 arg4 harg4 arg5 harg5 arg6 harg6 arg7 harg7 hc0 hc1 x0 x1 x2 xs0 xs1)]
  unfold kernelRunC
  dsimp only
  sl_unfold_words
  rw [View.canon_unit_zero hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

/-- Column tile 15: the denominator accumulator holds what it held plus the tile's row sums. -/
theorem soutC_D_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) :
    soutC_D c i arg2 harg2 arg3 harg3 arg4 harg4 arg5 harg5 arg6 harg6 arg7 harg7 hc0 hc1 x0 x1 x2 xs0 xs1 = k0_pay4 x0 x1 xs1 := by
  unfold soutC_D
  rw [View.read_writes_eq_canon _ _ _ (coverC_D c i arg2 harg2 arg3 harg3 arg4 harg4 arg5 harg5 arg6 harg6 arg7 harg7 hc0 hc1 x0 x1 x2 xs0 xs1)]
  unfold kernelRunC
  dsimp only
  sl_unfold_words
  rw [View.canon_unit_zero hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

/-- Column tile 15: the output block holds the quotient of the two accumulators as this tile leaves them. -/
theorem soutC_O_eq (c : Dev nD) (i : grid0.Coords) (arg2 : Memref sig .tc .vmem S2048x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1 .f32) (harg7 : arg7.IsWhole) (hc0 : ¬condFirst i) (hc1 : condLast i)
    (x0 : Vec F S2048x256 .f32) (x1 : Vec F S512x256 .f32) (x2 : Vec F S512x256 .bf16) (xs0 : Vec F S2048x256 .f32) (xs1 : Vec F S2048x1 .f32) :
    soutC_O c i arg2 harg2 arg3 harg3 arg4 harg4 arg5 harg5 arg6 harg6 arg7 harg7 hc0 hc1 x0 x1 x2 xs0 xs1 = k0_pay6 (k0_pay5 x0 x1 x2 xs0) (k0_pay4 x0 x1 xs1) := by
  unfold soutC_O
  rw [View.read_writes_eq_canon _ _ _ (coverC_O c i arg2 harg2 arg3 harg3 arg4 harg4 arg5 harg5 arg6 harg6 arg7 harg7 hc0 hc1 x0 x1 x2 xs0 xs1)]
  unfold kernelRunC
  dsimp only
  sl_unfold_words
  rw [View.canon_unit_zero hz2, View.readCov_unit_zero (S := S2048x256) _ hz2, View.readCov_unit_zero (S := S2048x1) _ hz2]
  simp only [View.readAt_eq_ld, harg2.read_unread, harg3.read_unread, harg4.read_unread, harg5.read_unread, harg6.read_unread, harg7.read_unread, View.ld_unit_zero (S := S2048x256) hz2, View.ld_unit_zero (S := S512x256) hz2, View.ld_unit_zero (S := S2048x1) hz2]

end Cert.KernelIdeal.Hand

end
-- ==== Proof.RowNormSpec.lean ====
/-
  The function both programs compute, for a matrix X of 8192 rows and 256 columns over the extended reals:
  S i j = Σ k, X i k · X j k (the Gram matrix X·Xᵀ), r i = Σ j, S i j (its row sums), and the result
  out i d = (Σ j, S i j · X j d) / r i. The reference divides every S i j by r i first and multiplies by X afterwards;
  the kernel sums first and divides once. The two agree where every entry is a real number and no row sum is zero:
  there the quotient by r i is the product with its reciprocal, which moves across the finite sum.
-/
import Idealize.ShloMosaic.PureOps.Ideal
import Idealize.ShloMosaic.Lib.ValueIdx

noncomputable section

open scoped BigOperators

namespace Cert.RowNorm

open Idealize.ShloMosaic Idealize.ShloMosaic.ValueIdx

/-- The argument array's shape: 8192 rows of 256 entries. -/
abbrev SX : Shape := ⟨2, ![8192, 256]⟩

/-- Entry (i, j) of X·Xᵀ: the inner product of rows i and j. -/
def gram (X : SX.Idx → EReal) (i j : Fin 8192) : EReal := ∑ k : Fin 256, X (ix2 i k) * X (ix2 j k)

/-- The sum of row i of X·Xᵀ. -/
def rowsum (X : SX.Idx → EReal) (i : Fin 8192) : EReal := ∑ j : Fin 8192, gram X i j

/-- Entry (i, d) of (X·Xᵀ)·X. -/
def weighted (X : SX.Idx → EReal) (i : Fin 8192) (d : Fin 256) : EReal := ∑ j : Fin 8192, gram X i j * X (ix2 j d)

/-- The result at row i and column d: the weighted sum over the row sum. -/
def outAt (X : SX.Idx → EReal) (i : Fin 8192) (d : Fin 256) : EReal := Ideal.div (weighted X i d) (rowsum X i)

/-- The result as one array. -/
def G (X : SX.Idx → EReal) : SX.Idx → EReal := fun idx => outAt X (idx 0) (idx 1)

/-- Every entry of X is a real number. -/
def Finite (X : SX.Idx → EReal) : Prop := ∀ idx : SX.Idx, ∃ x : ℝ, X idx = (x : EReal)

/-- No row sum of X·Xᵀ is zero. -/
def RowsNonzero (X : SX.Idx → EReal) : Prop := ∀ i : Fin 8192, rowsum X i ≠ 0

end Cert.RowNorm

end
-- ==== Proof.KernelTiles.lean ====
/-
  The kernel's accumulators as functions of the argument array. Row tile I holds rows 2048·I … 2048·I + 2047; column
  tile n of the Gram matrix comes from rows 512·n … 512·n + 511. Over the sixteen column tiles of one row tile the
  numerator accumulator gathers Σ j, S i j · X j d and the denominator accumulator Σ j, S i j, both starting from zero;
  after the last tile the output block is their quotient.
-/
import proofs.«159248_j63376537420539_2_alg».proof.Proof.Gen.KernelIdeal.Skeleton
import proofs.«159248_j63376537420539_2_alg».proof.Proof.RowNormSpec

noncomputable section

namespace Cert.KernelIdeal.Tiles

open Idealize.ShloMosaic Idealize.ShloMosaic.ValueIdx Cert.KernelIdeal Cert.KernelIdeal.Gen Cert.RowNorm

/-- Rows 2048·I … of X: the block the first window holds throughout row tile I. -/
def qTile (X : SX.Idx → EReal) (I : Fin 4) : Vec Ideal S2048x256 .f32 :=
  fun y => X (ix2 (⟨I.val * 2048 + (y 0).val, by have := idx2_lt0 y; have := I.isLt; omega⟩ : Fin 8192) (y 1))

/-- Rows 512·n … of X: the block the second window holds at column tile n. -/
def kvTile (X : SX.Idx → EReal) (n : Fin 16) : Vec Ideal S512x256 .f32 :=
  fun y => X (ix2 (⟨n.val * 512 + (y 0).val, by have := idx2_lt0 y; have := n.isLt; omega⟩ : Fin 8192) (y 1))

/-- The same rows of the narrowed copy of X, which at the extended reals is X itself. -/
def kvTileB (X : SX.Idx → EReal) (n : Fin 16) : Vec Ideal S512x256 .bf16 :=
  fun y => X (ix2 (⟨n.val * 512 + (y 0).val, by have := idx2_lt0 y; have := n.isLt; omega⟩ : Fin 8192) (y 1))

/-- The numerator accumulator of row tile I after the first n column tiles. -/
def numAcc (X : SX.Idx → EReal) (I : Fin 4) : Nat → Vec Ideal S2048x256 .f32
  | 0 => k0_pay1 (F := Ideal)
  | n + 1 => if h : n < 16 then k0_pay5 (F := Ideal) (qTile X I) (kvTile X ⟨n, h⟩) (kvTileB X ⟨n, h⟩) (numAcc X I n) else numAcc X I n

/-- The denominator accumulator of row tile I after the first n column tiles. -/
def denAcc (X : SX.Idx → EReal) (I : Fin 4) : Nat → Vec Ideal S2048x1 .f32
  | 0 => k0_pay2 (F := Ideal)
  | n + 1 => if h : n < 16 then k0_pay4 (F := Ideal) (qTile X I) (kvTile X ⟨n, h⟩) (denAcc X I n) else denAcc X I n

/-- The output block of row tile I: the quotient of the two accumulators after all sixteen column tiles. -/
def outTile (X : SX.Idx → EReal) (I : Fin 4) : Vec Ideal S2048x256 .f32 :=
  k0_pay6 (F := Ideal) (numAcc X I 16) (denAcc X I 16)

end Cert.KernelIdeal.Tiles

end
-- ==== Proof.KIBlocks.lean ====
/-
  The windows' blocks, read off their arrays at the extended reals. The call's grid has 64 points; point t works on
  row tile t / 16 (2048 of the 8192 rows) and column tile t % 16 (512 rows). The first window's block at t is rows
  2048·(t / 16) … of the argument X; the second and third windows' blocks are rows 512·(t % 16) … of X and of its
  narrowed copy, which at the extended reals is X itself; the output window's block at t is rows 2048·(t / 16) … of
  the result array, written back at the points with t % 16 = 15, and those four blocks together cover every row.
-/
import proofs.«159248_j63376537420539_2_alg».proof.Proof.KIBase
import proofs.«159248_j63376537420539_2_alg».proof.Proof.KernelTiles
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The argument array as a function of (row, column) into the extended reals. -/
abbrev argX (c : Dev nD) : Cert.RowNorm.SX.Idx → EReal := m ((c : Thread nD τ).loc main_arg0)

/-! ## The narrowed copy -/

/-- The narrowing is the identity at the extended reals: the copy holds the argument's entries. -/
theorem V_main_v0 (c : Dev nD) : (V (F := Ideal) m c main_v0 : S8192x256.Idx → EReal) = argX m c := by
  dsimp only [V, V0, hostOps0]
  after_results
  exact funext fun i => truncf_apply _ _ i

/-! ## The index maps over the grid -/

/-- The grid has 64 points. -/
theorem N64 : cfg0.N = 64 := N_0

/-- The first window follows the row tile. -/
theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
/-- The second window follows the column tile. -/
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)
/-- So does the third. -/
theorem idx2 : ∀ t : Fin cfg0.N, win0_2.index t 0 = t.val % 16 ∧ win0_2.index t 1 = 0 :=
  (by decide +kernel : ∀ t : Fin grid0.N, win0_2.index t 0 = t.val % 16 ∧ win0_2.index t 1 = 0)
/-- The output window follows the row tile. -/
theorem idx3 : ∀ t : Fin cfg0.N, win0_3.index t 0 = t.val / 16 ∧ win0_3.index t 1 = 0 :=
  (by decide +kernel : ∀ t : Fin grid0.N, win0_3.index t 0 = t.val / 16 ∧ win0_3.index t 1 = 0)

/-- A point's row tile is one of four. -/
theorem rowTile_lt (t : Fin cfg0.N) : t.val / 16 < 4 := by have h := t.isLt; have h64 : cfg0.N = 64 := N64; omega
/-- A point's column tile is one of sixteen. -/
theorem colTile_lt (t : Fin cfg0.N) : t.val % 16 < 16 := Nat.mod_lt _ (by decide)

/-! ## The input blocks -/

/-- The first window's block at point t: rows 2048·(t / 16) … of the argument. -/
theorem iblk0_eq (c : Dev nD) (t : Fin cfg0.N) :
    iblk (F := Ideal) m c 0 t = Cert.KernelIdeal.Tiles.qTile (argX m c) ⟨t.val / 16, rowTile_lt t⟩ := by
  funext y
  unfold iblk
  rw [View.read_apply]
  show V m c main_arg0 _ = _
  rw [V_main_arg0]
  unfold Cert.KernelIdeal.Tiles.qTile
  show m (c.tc.loc main_arg0) _ = m (c.tc.loc main_arg0) _
  congr 1
  funext a
  apply Fin.ext
  match a with
  | ⟨0, _⟩ => show win0_0.index t 0 * 2048 + 1 * (y 0).val = t.val / 16 * 2048 + (y 0).val; rw [(idx0 t).1]; omega
  | ⟨1, _⟩ => show win0_0.index t 1 * 256 + 1 * (y 1).val = (y 1).val; rw [(idx0 t).2]; omega

/-- The second window's block at point t: rows 512·(t % 16) … of the argument. -/
theorem iblk1_eq (c : Dev nD) (t : Fin cfg0.N) :
    iblk (F := Ideal) m c 1 t = Cert.KernelIdeal.Tiles.kvTile (argX m c) ⟨t.val % 16, colTile_lt t⟩ := by
  funext y
  unfold iblk
  rw [View.read_apply]
  show V m c main_arg0 _ = _
  rw [V_main_arg0]
  unfold Cert.KernelIdeal.Tiles.kvTile
  show m (c.tc.loc main_arg0) _ = m (c.tc.loc main_arg0) _
  congr 1
  funext a
  apply Fin.ext
  match a with
  | ⟨0, _⟩ => show win0_1.index t 0 * 512 + 1 * (y 0).val = t.val % 16 * 512 + (y 0).val; rw [(idx1 t).1]; omega
  | ⟨1, _⟩ => show win0_1.index t 1 * 256 + 1 * (y 1).val = (y 1).val; rw [(idx1 t).2]; omega

/-- The third window's block at point t: the same rows of the narrowed copy, which is the argument. -/
theorem iblk2_eq (c : Dev nD) (t : Fin cfg0.N) :
    iblk (F := Ideal) m c 2 t = Cert.KernelIdeal.Tiles.kvTileB (argX m c) ⟨t.val % 16, colTile_lt t⟩ := by
  funext y
  unfold iblk
  rw [View.read_apply]
  show (V m c main_v0 : S8192x256.Idx → EReal) _ = _
  rw [V_main_v0]
  unfold Cert.KernelIdeal.Tiles.kvTileB
  show argX m c _ = argX m c _
  congr 1
  funext a
  apply Fin.ext
  match a with
  | ⟨0, _⟩ => show win0_2.index t 0 * 512 + 1 * (y 0).val = t.val % 16 * 512 + (y 0).val; rw [(idx2 t).1]; omega
  | ⟨1, _⟩ => show win0_2.index t 1 * 256 + 1 * (y 1).val = (y 1).val; rw [(idx2 t).2]; omega

/-! ## The output blocks -/

/-- An index of the result array is in point t's block exactly when each coordinate is in the block's range on its axis. -/
theorem mem_blk3 (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v1).slice (win0_3.rect t)).set ↔ _
  rw [View.set_slice_whole, Rect.mem_set_unit]
  exact Iff.rfl

/-- Every index of the result array is in the block of a point that writes back: row r is covered by the last
    column tile of row tile r / 2048. -/
theorem cover3 (c : Dev nD) : ∀ i : ((cfg0.win 3).arr.view.loc (c.tc : Thread nD τ)).2.ty.Idx,
    ∃ t : Fin cfg0.N, (cfg0.win 3).flush t = true ∧ i ∈ ((cfg0.win 3).blk t).view.set := by
  intro i
  have hi0 : (i 0).val < 8192 := (i 0).isLt
  have hi1 : (i 1).val < 256 := (i 1).isLt
  have h64 : cfg0.N = 64 := N64
  obtain ⟨t, ht⟩ : ∃ t : Fin cfg0.N, t.val = 16 * ((i 0).val / 2048) + 15 := ⟨⟨_, by omega⟩, rfl⟩
  obtain ⟨e0, e1⟩ := idx3 t
  refine ⟨t, (flush0_3 t).2 (by omega), ?_⟩
  rw [mem_blk3]
  intro a
  match a with
  | ⟨0, _⟩ => show win0_3.index t 0 * 2048 ≤ (i 0).val ∧ (i 0).val < win0_3.index t 0 * 2048 + 2048; rw [e0]; omega
  | ⟨1, _⟩ => show win0_3.index t 1 * 256 ≤ (i 1).val ∧ (i 1).val < win0_3.index t 1 * 256 + 256; rw [e1]; omega

/-- Block t of any function g of (row, column), read through the output window: g at row 2048·(t / 16) + y 0, column y 1. -/
theorem blk3_read (c : Dev nD) (t : Fin cfg0.N) (g : Cert.RowNorm.SX.Idx → EReal) :
    ((cfg0.win 3).blk t).view.read (Elt Ideal) (g : Buf (Elt Ideal) ((cfg0.win 3).arr.view.loc (c.tc : Thread nD τ)))
      = fun y => g (ix2 (⟨t.val / 16 * 2048 + (y 0).val, by have := rowTile_lt t; have := idx2_lt0 y; omega⟩ : Fin 8192) (y 1)) := by
  funext y
  rw [View.read_apply]
  refine congrArg g ?_
  funext a
  apply Fin.ext
  match a with
  | ⟨0, _⟩ => show win0_3.index t 0 * 2048 + 1 * (y 0).val = t.val / 16 * 2048 + (y 0).val; rw [(idx3 t).1]; omega
  | ⟨1, _⟩ => show win0_3.index t 1 * 256 + 1 * (y 1).val = (y 1).val; rw [(idx3 t).2]; omega

/-- The same for the result function of the shared specification, given as the array's contents. -/
theorem blk3_read_G (c : Dev nD) (t : Fin cfg0.N) (Gb : Buf (Elt Ideal) ((cfg0.win 3).arr.view.loc (c.tc : Thread nD τ)))
    (hG : Gb = (Cert.RowNorm.G (argX m c) : Cert.RowNorm.SX.Idx → EReal)) :
    ((cfg0.win 3).blk t).view.read (Elt Ideal) Gb
      = fun y => Cert.RowNorm.G (argX m c) (ix2 (⟨t.val / 16 * 2048 + (y 0).val, by have := rowTile_lt t; have := idx2_lt0 y; omega⟩ : Fin 8192) (y 1)) := by
  subst hG
  exact blk3_read c t _

end Cert.KernelIdeal.Hand

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.TilesValuePay.lean ====
/-
  The six pure terms of the kernel's body, each read at one entry over the extended reals: the two zero fills, the block
  of the Gram matrix (a product against a transposed right operand, so an inner product of two rows), the denominator's
  step (old entry plus a row sum of that block), the numerator's step (old entry plus a row of that block times a column
  of the value block) and the final entrywise quotient by the broadcast denominator column.
-/
import proofs.«159248_j63376537420539_2_alg».proof.Proof.KernelTiles
import proofs.«159248_j63376537420539_2_alg».proof.Proof.LibPlainMatmul
import proofs.«159248_j63376537420539_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TilesValue

open Idealize.ShloMosaic Idealize.ShloMosaic.ValueIdx Cert.KernelIdeal Cert.KernelIdeal.Gen

/-- The numerator's zero fill reads zero at every entry. -/
theorem pay1_apply (j : S2048x256.Idx) : k0_pay1 (F := Ideal) j = 0 := by
  show shapeCast S2048x256 (broadcast S2048x256 (Scalar.ofBits (F := Ideal) .f32 0x00000000#32)) shapeCasts_S2048x256_S2048x256 j = 0
  rw [shapeCast_self]
  exact Ideal.ofBits_zero_f32

/-- The denominator's zero fill reads zero at every entry. -/
theorem pay2_apply (j : S2048x1.Idx) : k0_pay2 (F := Ideal) j = 0 := by
  show shapeCast S2048x1 (broadcast S2048x1 (Scalar.ofBits (F := Ideal) .f32 0x00000000#32)) shapeCasts_S2048x1_S2048x1 j = 0
  rw [shapeCast_self]
  exact Ideal.ofBits_zero_f32

/-- The block of the Gram matrix: entry (p, jj) is the inner product of row p of the left block and row jj of the right one. -/
theorem pay3_apply (v3 : Vec Ideal S2048x256 .f32) (v4 : Vec Ideal S512x256 .f32) (p : Fin 2048) (jj : Fin 512) :
    k0_pay3 (F := Ideal) v3 v4 (ix2 p jj) = ∑ k : Fin 256, v3 (ix2 p k) * v4 (ix2 jj k) := by
  show FloatOps.matmul (F := Ideal) (φ₁ := .f32) (φ₂ := .f32) (DotDims.plain 2048 256 512) (some .fp32) v3
      (transpose (α := Ideal .f32) S256x512 [1, 0] v4 transposes_S512x256_p1_0_S256x512) (constant S2048x512 .f32 0x00000000#32) (ix2 p jj) = _
  refine (PlainMatmul.matmul_zero_apply (some .fp32) v3 _ p jj).trans ?_
  refine Finset.sum_congr rfl fun k _ => congrArg (v3 (ix2 p k) * ·) ?_
  exact transpose_apply (α := Ideal .f32) [1, 0] v4 transposes_S512x256_p1_0_S256x512 (ix2 k jj) (ix2 jj k) (fun b => match b with
    | ⟨0, _⟩ => rfl
    | ⟨1, _⟩ => rfl)

/-- The denominator's step: the old entry of row p plus the sum of row p of the Gram block. -/
theorem pay4_apply (v3 : Vec Ideal S2048x256 .f32) (v4 : Vec Ideal S512x256 .f32) (v9 : Vec Ideal S2048x1 .f32) (p : Fin 2048) :
    k0_pay4 (F := Ideal) v3 v4 v9 (ix2 p (0 : Fin 1))
      = v9 (ix2 p (0 : Fin 1)) + ∑ jj : Fin 512, k0_pay3 (F := Ideal) v3 v4 (ix2 p jj) := by
  generalize hS : k0_pay3 (F := Ideal) v3 v4 = S
  unfold k0_pay4
  rw [hS]
  show shapeCast S2048x1 (addf (F := Ideal) (φ := .f32) v9 (shapeCast (α := Ideal .f32) S2048x1
      (multiReduction (F := Ideal) .add [1] S2048 S 0x00000000#32 reduces_S2048x512_S2048 (.inl rfl) rfl) shapeCasts_S2048_S2048x1))
      shapeCasts_S2048x1_S2048x1 (ix2 p (0 : Fin 1)) = _
  rw [shapeCast_self]
  refine congrArg (v9 (ix2 p (0 : Fin 1)) + ·) ?_
  refine (ColumnLayout.shapeCast_a_a1_apply (α := Ideal .f32) _ shapeCasts_S2048_S2048x1 p 0).trans ?_
  exact ColumnLayout.rowSum_apply S reduces_S2048x512_S2048 (.inl rfl) rfl p

/-- The numerator's step: the old entry (p, d) plus the product of row p of the Gram block with column d of the value block. -/
theorem pay5_apply (v3 : Vec Ideal S2048x256 .f32) (v4 : Vec Ideal S512x256 .f32) (v5 : Vec Ideal S512x256 .bf16)
    (v17 : Vec Ideal S2048x256 .f32) (p : Fin 2048) (d : Fin 256) :
    k0_pay5 (F := Ideal) v3 v4 v5 v17 (ix2 p d)
      = v17 (ix2 p d) + ∑ jj : Fin 512, k0_pay3 (F := Ideal) v3 v4 (ix2 p jj) * v5 (ix2 jj d) := by
  generalize hS : k0_pay3 (F := Ideal) v3 v4 = S
  unfold k0_pay5
  rw [hS]
  show shapeCast S2048x256 (addf (F := Ideal) (φ := .f32) v17
      (FloatOps.matmul (F := Ideal) (φ₁ := .bf16) (φ₂ := .bf16) (DotDims.plain 2048 512 256) none
        (truncf (F := Ideal) .bf16 S bitsLt_bf16_f32) (shapeCast (α := Ideal .bf16) S512x256 v5 shapeCasts_S512x256_S512x256)
        (constant S2048x256 .f32 0x00000000#32)))
      shapeCasts_S2048x256_S2048x256 (ix2 p d) = _
  rw [shapeCast_self, shapeCast_self]
  refine congrArg (v17 (ix2 p d) + ·) ?_
  exact PlainMatmul.matmul_zero_apply none (truncf (F := Ideal) .bf16 S bitsLt_bf16_f32) v5 p d

/-- The final quotient: entry (p, d) of the numerator over entry p of the denominator column. -/
theorem pay6_apply (v26 : Vec Ideal S2048x256 .f32) (v27 : Vec Ideal S2048x1 .f32) (p : Fin 2048) (d : Fin 256) :
    k0_pay6 (F := Ideal) v26 v27 (ix2 p d) = Ideal.div (v26 (ix2 p d)) (v27 (ix2 p (0 : Fin 1))) := by
  show Ideal.div (v26 (ix2 p d)) (broadcastTo (α := Ideal .f32) S2048x256 v27 broadcasts_S2048x1_S2048x256 (ix2 p d)) = _
  exact congrArg (Ideal.div (v26 (ix2 p d))) (ColumnLayout.broadcastTo_a1_ab_apply (α := Ideal .f32) v27 broadcasts_S2048x1_S2048x256 p d)

end Cert.KernelIdeal.TilesValue

end
-- ==== Proof.TilesValue.lean ====
/-
  The kernel's accumulators end at the specification. Row tile I runs over sixteen column tiles; at column tile n the
  Gram block's entry (p, jj) is the Gram entry of row 2048·I + p against row 512·n + jj, so each step adds the next 512
  terms of the two sums Σ j, S i j · X j d and Σ j, S i j. By induction on the number of tiles done the accumulators hold
  the sums over the first 512·n rows (terms past the last row are taken as zero, so that the partial sums range over an
  initial segment of the naturals); after sixteen tiles these are the sums over all 8192 rows, and the final quotient is
  the specification's. Only the additive commutative monoid structure of the extended reals is used.
-/
import proofs.«159248_j63376537420539_2_alg».proof.Proof.TilesValuePay

noncomputable section

open scoped BigOperators

namespace Cert.KernelIdeal.TilesValue

open Idealize.ShloMosaic Idealize.ShloMosaic.ValueIdx Cert.KernelIdeal Cert.KernelIdeal.Gen

/-- Row p of row tile I, as a row of the whole array. -/
def row (I : Fin 4) (p : Fin 2048) : Fin 8192 := ⟨I.val * 2048 + p.val, by have := I.isLt; have := p.isLt; omega⟩

/-- Term j of the numerator's sum for output entry (i, d), extended by zero past the last row. -/
def numTerm (X : Cert.RowNorm.SX.Idx → EReal) (i : Fin 8192) (d : Fin 256) (j : ℕ) : EReal :=
  if h : j < 8192 then Cert.RowNorm.gram X i ⟨j, h⟩ * X (ix2 (⟨j, h⟩ : Fin 8192) d) else 0

/-- Term j of the denominator's sum for output row i, extended by zero past the last row. -/
def denTerm (X : Cert.RowNorm.SX.Idx → EReal) (i : Fin 8192) (j : ℕ) : EReal :=
  if h : j < 8192 then Cert.RowNorm.gram X i ⟨j, h⟩ else 0

/-- Entry (p, jj) of the Gram block of row tile I against column tile n is the Gram entry of the two rows. -/
theorem gramTile (X : Cert.RowNorm.SX.Idx → EReal) (I : Fin 4) (n : ℕ) (hn : n < 16) (p : Fin 2048) (jj : Fin 512)
    (hj : n * 512 + jj.val < 8192) :
    k0_pay3 (F := Ideal) (Tiles.qTile X I) (Tiles.kvTile X ⟨n, hn⟩) (ix2 p jj) = Cert.RowNorm.gram X (row I p) ⟨n * 512 + jj.val, hj⟩ := by
  rw [pay3_apply]
  rfl

/-- After n column tiles the numerator holds the first 512·n terms of its sum. -/
theorem numAcc_eq (X : Cert.RowNorm.SX.Idx → EReal) (I : Fin 4) (p : Fin 2048) (d : Fin 256) :
    ∀ n : ℕ, n ≤ 16 → Tiles.numAcc X I n (ix2 p d) = ∑ j ∈ Finset.range (n * 512), numTerm X (row I p) d j := by
  intro n
  induction n with
  | zero =>
    intro _
    rw [Nat.zero_mul, Finset.range_zero, Finset.sum_empty]
    exact pay1_apply _
  | succ n ih =>
    intro hn
    have h : n < 16 := by omega
    have e : Tiles.numAcc X I (n + 1)
        = k0_pay5 (F := Ideal) (Tiles.qTile X I) (Tiles.kvTile X ⟨n, h⟩) (Tiles.kvTileB X ⟨n, h⟩) (Tiles.numAcc X I n) := by
      show (if h : n < 16 then _ else _) = _
      exact dif_pos h
    rw [e, pay5_apply, ih (by omega), Nat.succ_mul, Finset.sum_range_add]
    refine congrArg (_ + ·) ?_
    rw [Finset.sum_range]
    refine Finset.sum_congr rfl fun jj _ => ?_
    have hj : n * 512 + jj.val < 8192 := by have := jj.isLt; omega
    rw [gramTile X I n h p jj hj]
    unfold numTerm
    rw [dif_pos hj]
    rfl

/-- After n column tiles the denominator holds the first 512·n terms of its sum. -/
theorem denAcc_eq (X : Cert.RowNorm.SX.Idx → EReal) (I : Fin 4) (p : Fin 2048) :
    ∀ n : ℕ, n ≤ 16 → Tiles.denAcc X I n (ix2 p (0 : Fin 1)) = ∑ j ∈ Finset.range (n * 512), denTerm X (row I p) j := by
  intro n
  induction n with
  | zero =>
    intro _
    rw [Nat.zero_mul, Finset.range_zero, Finset.sum_empty]
    exact pay2_apply _
  | succ n ih =>
    intro hn
    have h : n < 16 := by omega
    have e : Tiles.denAcc X I (n + 1)
        = k0_pay4 (F := Ideal) (Tiles.qTile X I) (Tiles.kvTile X ⟨n, h⟩) (Tiles.denAcc X I n) := by
      show (if h : n < 16 then _ else _) = _
      exact dif_pos h
    rw [e, pay4_apply, ih (by omega), Nat.succ_mul, Finset.sum_range_add]
    refine congrArg (_ + ·) ?_
    rw [Finset.sum_range]
    refine Finset.sum_congr rfl fun jj _ => ?_
    have hj : n * 512 + jj.val < 8192 := by have := jj.isLt; omega
    rw [gramTile X I n h p jj hj]
    unfold denTerm
    rw [dif_pos hj]

/-- All 8192 terms of the numerator's sum: the weighted sum of the specification. -/
theorem sum_numTerm (X : Cert.RowNorm.SX.Idx → EReal) (i : Fin 8192) (d : Fin 256) :
    ∑ j ∈ Finset.range 8192, numTerm X i d j = Cert.RowNorm.weighted X i d := by
  rw [Finset.sum_range]
  refine Finset.sum_congr rfl fun j _ => ?_
  unfold numTerm
  rw [dif_pos j.isLt]

/-- All 8192 terms of the denominator's sum: the row sum of the specification. -/
theorem sum_denTerm (X : Cert.RowNorm.SX.Idx → EReal) (i : Fin 8192) :
    ∑ j ∈ Finset.range 8192, denTerm X i j = Cert.RowNorm.rowsum X i := by
  rw [Finset.sum_range]
  refine Finset.sum_congr rfl fun j _ => ?_
  unfold denTerm
  rw [dif_pos j.isLt]

/-- **The output block of row tile I is the specification's block**: the numerator ends at the weighted sum, the
    denominator at the row sum, and the same quotient closes both sides. -/
theorem outTile_eq_G (X : Cert.RowNorm.SX.Idx → EReal) (I : Fin 4) (p : Fin 2048) (d : Fin 256) :
    Cert.KernelIdeal.Tiles.outTile X I (ix2 p d)
      = Cert.RowNorm.G X (ix2 (⟨I.val * 2048 + p.val, by have := I.isLt; have := p.isLt; omega⟩ : Fin 8192) d) := by
  show k0_pay6 (F := Ideal) (Tiles.numAcc X I 16) (Tiles.denAcc X I 16) (ix2 p d)
      = Ideal.div (Cert.RowNorm.weighted X (row I p) d) (Cert.RowNorm.rowsum X (row I p))
  rw [pay6_apply, numAcc_eq X I p d 16 (Nat.le_refl 16), denAcc_eq X I p 16 (Nat.le_refl 16)]
  show Ideal.div (∑ j ∈ Finset.range 8192, numTerm X (row I p) d j) (∑ j ∈ Finset.range 8192, denTerm X (row I p) j) = _
  rw [sum_numTerm, sum_denTerm]

end Cert.KernelIdeal.TilesValue

end
-- ==== Proof.KIValue.lean ====
/-
  The kernel's value at the extended reals. Point t of the 4 × 16 grid works on row tile t / 16 and column tile t % 16.
  The body's numerator and denominator updates are the steps of the tile recursion over the blocks the point finds:
  rows 2048·(t / 16) … of the argument against rows 512·(t % 16) … of it. By induction on the point, the accumulators
  after point t are the recursion's values of row tile t / 16 after t % 16 + 1 column tiles: at column tile 0 the body
  starts from the zero accumulators, elsewhere from what the point before left, and the point before has the same row
  tile and the column tile before. At column tile 15 the body stores the quotient of the accumulators after all sixteen
  tiles, which is the row tile's block of the specification; these blocks are written back and cover the result array.
-/
import proofs.«159248_j63376537420539_2_alg».proof.Proof.KIPieces
import proofs.«159248_j63376537420539_2_alg».proof.Proof.KIBlocks
import proofs.«159248_j63376537420539_2_alg».proof.Proof.TilesValue

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## One step of the tile recursion -/

/-- The numerator accumulator after column tile k is the body's update of the one before. -/
theorem numAcc_step (X : Cert.RowNorm.SX.Idx → EReal) (I : Fin 4) (k : Fin 16) :
    Cert.KernelIdeal.Tiles.numAcc X I (k.val + 1)
      = k0_pay5 (F := Ideal) (Cert.KernelIdeal.Tiles.qTile X I) (Cert.KernelIdeal.Tiles.kvTile X k)
          (Cert.KernelIdeal.Tiles.kvTileB X k) (Cert.KernelIdeal.Tiles.numAcc X I k.val) := by
  show (if h : k.val < 16 then _ else _) = _
  rw [dif_pos k.isLt]

/-- The denominator accumulator after column tile k is the body's update of the one before. -/
theorem denAcc_step (X : Cert.RowNorm.SX.Idx → EReal) (I : Fin 4) (k : Fin 16) :
    Cert.KernelIdeal.Tiles.denAcc X I (k.val + 1)
      = k0_pay4 (F := Ideal) (Cert.KernelIdeal.Tiles.qTile X I) (Cert.KernelIdeal.Tiles.kvTile X k)
          (Cert.KernelIdeal.Tiles.denAcc X I k.val) := by
  show (if h : k.val < 16 then _ else _) = _
  rw [dif_pos k.isLt]

/-- The body's numerator update at point t, over the blocks the point finds, is the tile recursion's step: the point's
    row tile is I and its column tile is k. -/
theorem step_N (c : Dev nD) (t : Fin cfg0.N) (I : Fin 4) (k : Fin 16) (hI : I.val = t.val / 16) (hk : k.val = t.val % 16)
    (prev : Vec Ideal S2048x256 .f32) (hp : prev = Cert.KernelIdeal.Tiles.numAcc (argX m c) I k.val) :
    k0_pay5 (F := Ideal) (iblk (F := Ideal) m c 0 t) (iblk (F := Ideal) m c 1 t) (iblk (F := Ideal) m c 2 t) prev
      = Cert.KernelIdeal.Tiles.numAcc (argX m c) I (k.val + 1) := by
  have eI : (⟨t.val / 16, rowTile_lt t⟩ : Fin 4) = I := Fin.ext hI.symm
  have ek : (⟨t.val % 16, colTile_lt t⟩ : Fin 16) = k := Fin.ext hk.symm
  rw [iblk0_eq, iblk1_eq, iblk2_eq, numAcc_step, hp, eI, ek]

/-- The same for the denominator. -/
theorem step_D (c : Dev nD) (t : Fin cfg0.N) (I : Fin 4) (k : Fin 16) (hI : I.val = t.val / 16) (hk : k.val = t.val % 16)
    (prev : Vec Ideal S2048x1 .f32) (hp : prev = Cert.KernelIdeal.Tiles.denAcc (argX m c) I k.val) :
    k0_pay4 (F := Ideal) (iblk (F := Ideal) m c 0 t) (iblk (F := Ideal) m c 1 t) prev
      = Cert.KernelIdeal.Tiles.denAcc (argX m c) I (k.val + 1) := by
  have eI : (⟨t.val / 16, rowTile_lt t⟩ : Fin 4) = I := Fin.ext hI.symm
  have ek : (⟨t.val % 16, colTile_lt t⟩ : Fin 16) = k := Fin.ext hk.symm
  rw [iblk0_eq, iblk1_eq, denAcc_step, hp, eI, ek]

/-! ## The accumulators point by point -/

/-- After point n, of row tile I and column tile k, the two accumulators hold the tile recursion's values after k + 1
    column tiles. By induction on the point: at column tile 0 the body starts from the zero accumulators; elsewhere
    from what the point before, of the same row tile and the column tile before, left. -/
theorem acc_aux (c : Dev nD) : ∀ (n : ℕ) (hn : n < cfg0.N) (I : Fin 4) (k : ℕ), I.val = n / 16 → k = n % 16 →
    (outsAt (F := Ideal) m c n hn).2.1 = Cert.KernelIdeal.Tiles.numAcc (argX m c) I (k + 1)
    ∧ (outsAt (F := Ideal) m c n hn).2.2 = Cert.KernelIdeal.Tiles.denAcc (argX m c) I (k + 1) := by
  intro n
  induction n with
  | zero =>
    intro hn I k hI hk
    obtain rfl : k = 0 := hk
    rw [show outsAt (F := Ideal) m c 0 hn = _ from outsAt_A m c ⟨0, hn⟩ (Nat.zero_mod _) (show ¬(0 % 16 = 15) by decide)]
    refine ⟨?_, ?_⟩
    · dsimp only
      unfold ptA_N
      rw [soutA_N_eq]
      exact step_N m c ⟨0, hn⟩ I ⟨0, by decide⟩ hI rfl _ rfl
    · dsimp only
      unfold ptA_D
      rw [soutA_D_eq]
      exact step_D m c ⟨0, hn⟩ I ⟨0, by decide⟩ hI rfl _ rfl
  | succ n ih =>
    intro hn I k hI hk
    have hk16 : k < 16 := by omega
    by_cases h0 : (n + 1) % 16 = 0
    · have h1 : ¬(n + 1) % 16 = 15 := by omega
      obtain rfl : k = 0 := hk.trans h0
      rw [show outsAt (F := Ideal) m c (n + 1) hn = _ from outsAt_A m c ⟨n + 1, hn⟩ h0 h1]
      refine ⟨?_, ?_⟩
      · dsimp only
        unfold ptA_N
        rw [soutA_N_eq]
        exact step_N m c ⟨n + 1, hn⟩ I ⟨0, by decide⟩ hI h0.symm _ rfl
      · dsimp only
        unfold ptA_D
        rw [soutA_D_eq]
        exact step_D m c ⟨n + 1, hn⟩ I ⟨0, by decide⟩ hI h0.symm _ rfl
    · obtain ⟨j, rfl⟩ : ∃ j, k = j + 1 := ⟨k - 1, by omega⟩
      have hprev := ih (Nat.lt_of_succ_lt hn) I j (by omega) (by omega)
      by_cases h1 : (n + 1) % 16 = 15
      · rw [show outsAt (F := Ideal) m c (n + 1) hn = _ from outsAt_C m c ⟨n + 1, hn⟩ h0 h1]
        refine ⟨?_, ?_⟩
        · dsimp only
          unfold ptC_N
          rw [soutC_N_eq]
          exact step_N m c ⟨n + 1, hn⟩ I ⟨j + 1, hk16⟩ hI hk _ hprev.1
        · dsimp only
          unfold ptC_D
          rw [soutC_D_eq]
          exact step_D m c ⟨n + 1, hn⟩ I ⟨j + 1, hk16⟩ hI hk _ hprev.2
      · rw [show outsAt (F := Ideal) m c (n + 1) hn = _ from outsAt_B m c ⟨n + 1, hn⟩ h0 h1]
        refine ⟨?_, ?_⟩
        · dsimp only
          unfold ptB_N
          rw [soutB_N_eq]
          exact step_N m c ⟨n + 1, hn⟩ I ⟨j + 1, hk16⟩ hI hk _ hprev.1
        · dsimp only
          unfold ptB_D
          rw [soutB_D_eq]
          exact step_D m c ⟨n + 1, hn⟩ I ⟨j + 1, hk16⟩ hI hk _ hprev.2

/-- After point t the accumulators hold the tile recursion's values of t's row tile after t's column tile. -/
theorem acc_tiles (c : Dev nD) (t : Fin cfg0.N) :
    (outsAt (F := Ideal) m c t.val t.isLt).2.1 = Cert.KernelIdeal.Tiles.numAcc (argX m c) ⟨t.val / 16, rowTile_lt t⟩ (t.val % 16 + 1)
    ∧ (outsAt (F := Ideal) m c t.val t.isLt).2.2 = Cert.KernelIdeal.Tiles.denAcc (argX m c) ⟨t.val / 16, rowTile_lt t⟩ (t.val % 16 + 1) :=
  acc_aux m c t.val t.isLt ⟨t.val / 16, rowTile_lt t⟩ (t.val % 16) rfl rfl

/-! ## The output block -/

/-- At the last column tile of a row tile the body stores the quotient of the two accumulators after all sixteen
    column tiles: the output block of the row tile. -/
theorem out_tile (c : Dev nD) (t : Fin cfg0.N) (h1 : t.val % 16 = 15) :
    (outsAt (F := Ideal) m c t.val t.isLt).1 = Cert.KernelIdeal.Tiles.outTile (argX m c) ⟨t.val / 16, rowTile_lt t⟩ := by
  have h0 : ¬t.val % 16 = 0 := by omega
  have hprev : (prevAt (F := Ideal) m c t).2.1 = Cert.KernelIdeal.Tiles.numAcc (argX m c) ⟨t.val / 16, rowTile_lt t⟩ 15
      ∧ (prevAt (F := Ideal) m c t).2.2 = Cert.KernelIdeal.Tiles.denAcc (argX m c) ⟨t.val / 16, rowTile_lt t⟩ 15 :=
    acc_aux m c (t.val - 1) (Nat.lt_of_le_of_lt (Nat.sub_le _ _) t.isLt) ⟨t.val / 16, rowTile_lt t⟩ 14
      (show t.val / 16 = (t.val - 1) / 16 by omega) (by omega)
  have eN : k0_pay5 (F := Ideal) (iblk (F := Ideal) m c 0 t) (iblk (F := Ideal) m c 1 t) (iblk (F := Ideal) m c 2 t) (prevAt (F := Ideal) m c t).2.1
      = Cert.KernelIdeal.Tiles.numAcc (argX m c) ⟨t.val / 16, rowTile_lt t⟩ 16 :=
    step_N m c t ⟨t.val / 16, rowTile_lt t⟩ ⟨15, by decide⟩ rfl h1.symm _ hprev.1
  have eD : k0_pay4 (F := Ideal) (iblk (F := Ideal) m c 0 t) (iblk (F := Ideal) m c 1 t) (prevAt (F := Ideal) m c t).2.2
      = Cert.KernelIdeal.Tiles.denAcc (argX m c) ⟨t.val / 16, rowTile_lt t⟩ 16 :=
    step_D m c t ⟨t.val / 16, rowTile_lt t⟩ ⟨15, by decide⟩ rfl h1.symm _ hprev.2
  rw [outsAt_C m c t h0 h1]
  dsimp only
  unfold ptC_O
  rw [soutC_O_eq, eN, eD]
  rfl

/-- The output block of row tile I, entry by entry, is the specification at rows 2048·I … . -/
theorem outTile_fun (X : Cert.RowNorm.SX.Idx → EReal) (I : Fin 4) :
    Cert.KernelIdeal.Tiles.outTile X I
      = fun y : S2048x256.Idx => Cert.RowNorm.G X (ix2 (⟨I.val * 2048 + (y 0).val, by have := idx2_lt0 y; have := I.isLt; omega⟩ : Fin 8192) (y 1)) := by
  funext y
  obtain ⟨p, d, rfl⟩ : ∃ (p : Fin 2048) (d : Fin 256), y = ix2 p d := ⟨y 0, y 1, eq_ix2 y⟩
  exact Cert.KernelIdeal.TilesValue.outTile_eq_G X I p d

/-! ## The result array after the call -/

/-- The result array ends holding the specification: every point that writes back writes its row tile's block of the
    specification, and those blocks cover the array. -/
theorem arr3_final (c : Dev nD) :
    (dats (F := Ideal) m 0 c).arrAt 3 cfg0.N
      = (Cert.RowNorm.G (argX m c) : Buf (Elt Ideal) ((cfg0.win 3).arr.view.loc (c.tc : Thread nD τ))) := by
  refine (dats (F := Ideal) m 0 c).arrAt_eq_of_cover 3 _ (fun t hf => ?_) (cover3 c)
  have h1 : t.val % 16 = 15 := (flush0_3 t).mp hf
  show (cfg0.win 3).cut (grid0.coords t) ((dats (F := Ideal) m 0 c).after 3 t) = _
  rw [after3, out_tile m c t h1, blk3_read c t _, outTile_fun]

end Cert.KernelIdeal.Hand

end
-- ==== Proof.RefRows.lean ====
/-
  The reference read entry by entry: S = X·Xᵀ, the row sums r i = Σ j, S i j, the quotient S i j / r i, and the
  product of the quotient matrix with X.

  Entry (i, j) of the first product is the inner product of rows i and j of X, because the right operand is the
  transpose of X. The row sum is broadcast unchanged along each row, so entry (i, j) of the quotient matrix is
  S i j / r i, and entry (i, d) of the result is Σ j, (S i j / r i) · X j d. Where every entry of X is a real number
  and r i is not zero, every S i j and r i are real, dividing by r i is multiplying by the real 1 / r i, and that
  common factor moves out of the finite sum: the result is (Σ j, S i j · X j d) / r i.
-/
import proofs.«159248_j63376537420539_2_alg».proof.Proof.Gen.ReferenceIdeal.Read
import proofs.«159248_j63376537420539_2_alg».proof.Proof.RowNormSpec
import Idealize.ShloMosaic.Lib.ValueIdx
import Idealize.ShloMosaic.PureOps.Ideal.Laws

noncomputable section

open scoped BigOperators

namespace Cert.ReferenceIdeal.Rows

open Idealize.ShloMosaic Idealize.ShloMosaic.ValueIdx Cert.ReferenceIdeal Cert.ReferenceIdeal.Read Cert.RowNorm

/-! ## The law over abstract finite sums -/

/-- The embedding of the reals into the extended reals commutes with finite sums. -/
theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A finite sum of products of embedded reals is the embedded real sum of products. -/
theorem sum_coe_mul {ι : Type} [Fintype ι] (f g : ι → ℝ) :
    ∑ j, (f j : EReal) * (g j : EReal) = ((∑ j, f j * g j : ℝ) : EReal) := by
  rw [coe_sum]
  exact Finset.sum_congr rfl fun j _ => (EReal.coe_mul _ _).symm

/-- Dividing every weight by a nonzero real before the weighted sum is dividing the weighted sum once:
    Σ j, (S j / r) · b j = (Σ j, S j · b j) / r for real S j, b j and real r ≠ 0. -/
theorem sum_div_mul {ι : Type} [Fintype ι] (S b : ι → ℝ) {r : ℝ} (hr : r ≠ 0) :
    ∑ j, Ideal.div (S j : EReal) (r : EReal) * (b j : EReal)
      = Ideal.div (∑ j, (S j : EReal) * (b j : EReal)) (r : EReal) := by
  have h : ∀ j, Ideal.div (S j : EReal) (r : EReal) * (b j : EReal)
      = ((S j * (1 / r) : ℝ) : EReal) * (b j : EReal) := fun j => by
    rw [Ideal.div_coe hr, ← EReal.coe_mul]
  rw [Finset.sum_congr rfl fun j _ => h j, sum_coe_mul, sum_coe_mul, Ideal.div_coe hr, ← EReal.coe_mul]
  congr 1
  rw [Finset.sum_mul]
  exact Finset.sum_congr rfl fun j _ => by ring

/-! ## The reference's stages at an entry -/

/-- Entry (i, j) of the first product X·Xᵀ is the inner product of rows i and j of X. -/
theorem prod_at (X : (⟨S8192x256, .f32⟩ : BufTy).Contents (Elt Ideal)) (i j : Fin 8192) :
    val_main_v1 (F := Ideal) X (ix2 i j) = gram X i j := by
  rw [val_main_v1_apply]
  unfold gram
  refine Finset.sum_congr rfl fun k _ => ?_
  rw [val_main_v0_apply]
  have e1 : lidx_main_v1 (ix2 i j) k = ix2 i k :=
    funext fun a => Fin.ext (by match a with | ⟨0, _⟩ => rfl | ⟨1, _⟩ => rfl)
  have e2 : idx_main_v0 (ridx_main_v1 (ix2 i j) k) = ix2 j k :=
    funext fun a => Fin.ext (by match a with | ⟨0, _⟩ => rfl | ⟨1, _⟩ => rfl)
  rw [e1, e2]

/-- Entry i of the reduction is the sum of row i of X·Xᵀ: the initial value is the zero word. -/
theorem rowsum_at (X : (⟨S8192x256, .f32⟩ : BufTy).Contents (Elt Ideal)) (i : Fin 8192) :
    val_main_v2 (F := Ideal) X (ix1 i) = rowsum X i := by
  rw [val_main_v2_apply, val_main_cst_apply, Ideal.ofBits_def, Ideal.ofBits_zero_f32, zero_add]
  unfold rowsum
  refine Finset.sum_congr rfl fun k _ => ?_
  have e : idx_main_v2 (ix1 i) k = ix2 i k :=
    funext fun a => Fin.ext (by match a with | ⟨0, _⟩ => rfl | ⟨1, _⟩ => rfl)
  rw [e, prod_at]

/-- The two broadcasts carry the row sum unchanged to every entry of its row. -/
theorem denom_at (X : (⟨S8192x256, .f32⟩ : BufTy).Contents (Elt Ideal)) (i j : Fin 8192) :
    val_main_v4 (F := Ideal) X (ix2 i j) = rowsum X i := by
  rw [val_main_v4_apply, val_main_v3_apply]
  have e : idx_main_v3 (idx_main_v4 (ix2 i j)) = ix1 i :=
    funext fun a => Fin.ext (by match a with | ⟨0, _⟩ => rfl)
  rw [e, rowsum_at]

/-- Entry (i, j) of the quotient matrix is S i j over the sum of row i. -/
theorem quot_at (X : (⟨S8192x256, .f32⟩ : BufTy).Contents (Elt Ideal)) (i j : Fin 8192) :
    val_main_v5 (F := Ideal) X (ix2 i j) = Ideal.div (gram X i j) (rowsum X i) := by
  rw [val_main_v5_apply, prod_at, denom_at, Ideal.hostDivf_def]

/-- Entry (i, d) of the reference's result: the quotients of row i against column d of X. -/
theorem result_at (X : (⟨S8192x256, .f32⟩ : BufTy).Contents (Elt Ideal)) (i : Fin 8192) (d : Fin 256) :
    val_main_v6 (F := Ideal) X (ix2 i d)
      = ∑ j : Fin 8192, Ideal.div (gram X i j) (rowsum X i) * X (ix2 j d) := by
  rw [val_main_v6_apply]
  refine Finset.sum_congr rfl fun k _ => ?_
  have e1 : lidx_main_v6 (ix2 i d) k = ix2 i k :=
    funext fun a => Fin.ext (by match a with | ⟨0, _⟩ => rfl | ⟨1, _⟩ => rfl)
  have e2 : ridx_main_v6 (ix2 i d) k = ix2 k d :=
    funext fun a => Fin.ext (by match a with | ⟨0, _⟩ => rfl | ⟨1, _⟩ => rfl)
  rw [e1, e2, quot_at]

/-! ## The reference's result is G -/

/-- Where every entry of X is real and no row sum of X·Xᵀ is zero, the reference's result is G X. -/
theorem ref_eq_G (X : (⟨S8192x256, .f32⟩ : BufTy).Contents (Elt Ideal))
    (hf : Cert.RowNorm.Finite X) (hr : Cert.RowNorm.RowsNonzero X) :
    Cert.ReferenceIdeal.Read.val_main_v6 (F := Ideal) X = Cert.RowNorm.G X := by
  funext idx
  obtain ⟨i, d, rfl⟩ : ∃ (i : Fin 8192) (d : Fin 256), idx = ix2 i d := ⟨idx 0, idx 1, eq_ix2 idx⟩
  rw [result_at]
  show _ = Ideal.div (weighted X i d) (rowsum X i)
  choose x hx using hf
  -- the Gram entries of row i and their sum, as real numbers
  have hg : ∀ j : Fin 8192, gram X i j = ((∑ k : Fin 256, x (ix2 i k) * x (ix2 j k) : ℝ) : EReal) := fun j => by
    unfold gram
    rw [← sum_coe_mul]
    exact Finset.sum_congr rfl fun k _ => by rw [hx, hx]
  have hs : rowsum X i = ((∑ j : Fin 8192, ∑ k : Fin 256, x (ix2 i k) * x (ix2 j k) : ℝ) : EReal) := by
    unfold rowsum
    rw [coe_sum]
    exact Finset.sum_congr rfl fun j _ => hg j
  have hr0 : (∑ j : Fin 8192, ∑ k : Fin 256, x (ix2 i k) * x (ix2 j k)) ≠ 0 := fun h0 =>
    hr i (by rw [hs, h0, EReal.coe_zero])
  have hl : ∑ j : Fin 8192, Ideal.div (gram X i j) (rowsum X i) * X (ix2 j d)
      = ∑ j : Fin 8192, Ideal.div ((∑ k : Fin 256, x (ix2 i k) * x (ix2 j k) : ℝ) : EReal)
          ((∑ j : Fin 8192, ∑ k : Fin 256, x (ix2 i k) * x (ix2 j k) : ℝ) : EReal) * ((x (ix2 j d) : ℝ) : EReal) :=
    Finset.sum_congr rfl fun j _ => by rw [hg j, hs, hx (ix2 j d)]
  have hw : weighted X i d
      = ∑ j : Fin 8192, ((∑ k : Fin 256, x (ix2 i k) * x (ix2 j k) : ℝ) : EReal) * ((x (ix2 j d) : ℝ) : EReal) := by
    unfold weighted
    exact Finset.sum_congr rfl fun j _ => by rw [hg j, hx (ix2 j d)]
  rw [hl, hw, hs]
  exact sum_div_mul _ _ hr0

end Cert.ReferenceIdeal.Rows

end
-- ==== Proof.PreFacts.lean ====
/-
  The precondition, decoded. The printed predicate answers 1 exactly when two tests over the whole argument X hold:
  every entry x has |x| < +∞, and no row sum of X·Xᵀ equals zero. Each test is an "and" over all elements of an
  array of one-bit answers, so an answer of 1 gives the element fact at every index. At the extended reals the
  first fact says the entry is a real number (its absolute value max x (-x) lies strictly below ⊤, which excludes
  ⊤ and ⊥); for the second, the compared array is read at an index: the row sum is 0 + Σ j of the product array,
  the product array at (i, j) is Σ k of X at (i, k) times the transposed X at (k, j), and the transposed X at
  (k, j) is X at (j, k) — together the row sum Σ j Σ k X i k · X j k of the shared specification.
-/
import proofs.«159248_j63376537420539_2_alg».proof.Pre_finite_inputs
import proofs.«159248_j63376537420539_2_alg».proof.Proof.RowNormSpec
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.PreFacts

open Cert.Pre_finite_inputs Cert.Pre_finite_inputs.Facts Idealize.ShloMosaic Idealize.ShloMosaic.ValueIdx

variable [Cert.Pre_finite_inputs.Facts]

/-- The shape of rank zero has one index. -/
instance : Subsingleton S_.Idx := ⟨fun a b => funext fun d => d.elim0⟩

/-! ## The element facts -/

/-- The f32 pattern 0x7F800000 denotes +∞. -/
theorem ofBits_inf_f32 : Ideal.ofBits .f32 0x7F800000#32 = ⊤ := by simp [Ideal.ofBits, Ideal.ieee]

/-- A one-bit answer built from a decision is 1 exactly when the decided statement holds. -/
theorem ofBool_decide_eq_one (P : Prop) [Decidable P] : BitVec.ofBool (decide P) = 1#1 ↔ P := by
  by_cases hP : P <;> simp [hP]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The test |x| < +∞ answering 1 says x is a real number. -/
theorem real_of_test (x : EReal) (h : Ideal.cmp .olt (max x (-x)) (Ideal.ofBits .f32 0x7F800000#32) = 1#1) :
    ∃ r : ℝ, x = (r : EReal) := by
  rw [ofBits_inf_f32] at h
  exact real_of_abs_lt_top x ((ofBool_decide_eq_one _).1 h)

/-- The test r ≠ 0 (an unordered comparison answers as its ordered twin over the extended reals) answering 1 says r is not zero. -/
theorem ne_zero_of_test (r : EReal) (h : Ideal.cmp .une r (Ideal.ofBits .f32 0x00000000#32) = 1#1) : r ≠ 0 := by
  rw [Ideal.ofBits_zero_f32] at h
  exact (ofBool_decide_eq_one _).1 h

/-! ## The row sums read at an index -/

/-- The transposed argument. -/
def vT (X : FVec Ideal S8192x256 .f32) : FVec Ideal S256x8192 .f32 :=
  transpose S256x8192 [1, 0] X transposes_S8192x256_S256x8192_1_0

/-- The transposed argument at (k, j) is the argument at (j, k). -/
theorem vT_apply (X : FVec Ideal S8192x256 .f32) (k : Fin 256) (j : Fin 8192) : vT X (ix2 k j) = X (ix2 j k) := by
  unfold vT
  exact transpose_apply [1, 0] X transposes_S8192x256_S256x8192_1_0 (ix2 k j) (ix2 j k) (fun b => match b with
    | ⟨0, _⟩ => rfl
    | ⟨1, _⟩ => rfl)

/-- The product array X·Xᵀ, as the predicate computes it. -/
def vS (X : FVec Ideal S8192x256 .f32) : FVec Ideal S8192x8192 .f32 :=
  Host.dotGeneral dot_S8192x256_S256x8192_S8192x8192_1_0_0_1_n_n none X (vT X)

/-! The operand indices of the product at an output index and a contraction index, one coordinate at a time. -/

theorem lhs_0 (i : S8192x8192.Idx) (q : dot_S8192x256_S256x8192_S8192x8192_1_0_0_1_n_n.contr.Idx) :
    (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch from List.not_mem_nil), dif_pos (show (0 : Fin S8192x256.rank) ∈ dot_S8192x256_S256x8192_S8192x8192_1_0_0_1_n_n.lhsNonContracting from List.mem_singleton.2 rfl)]
  rfl
theorem lhs_1 (i : S8192x8192.Idx) (q : dot_S8192x256_S256x8192_S8192x8192_1_0_0_1_n_n.contr.Idx) :
    (dot_S8192x256_S256x8192_S8192x8192_1_0_0_1_n_n.lhsIdx i q 1).val = (q ⟨0, Nat.one_pos⟩).val :=
  dot_S8192x256_S256x8192_S8192x8192_1_0_0_1_n_n.lhsIdx_val_of_single rfl i q
theorem rhs_0 (i : S8192x8192.Idx) (q : dot_S8192x256_S256x8192_S8192x8192_1_0_0_1_n_n.contr.Idx) :
    (dot_S8192x256_S256x8192_S8192x8192_1_0_0_1_n_n.rhsIdx i q 0).val = (q ⟨0, Nat.one_pos⟩).val :=
  dot_S8192x256_S256x8192_S8192x8192_1_0_0_1_n_n.rhsIdx_val_of_single rfl i q
theorem rhs_1 (i : S8192x8192.Idx) (q : dot_S8192x256_S256x8192_S8192x8192_1_0_0_1_n_n.contr.Idx) :
    (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch from List.not_mem_nil), dif_pos (show (1 : Fin S256x8192.rank) ∈ dot_S8192x256_S256x8192_S8192x8192_1_0_0_1_n_n.rhsNonContracting from List.mem_singleton.2 rfl)]
  rfl

/-- The product of any two arrays of these shapes at (i, j): the sum over k of the left at (i, k) times the right at (k, j). -/
theorem dot_apply (A : FVec Ideal S8192x256 .f32) (B : FVec Ideal S256x8192 .f32) (i j : Fin 8192) :
    Host.dotGeneral dot_S8192x256_S256x8192_S8192x8192_1_0_0_1_n_n none A B (ix2 i j) = ∑ k : Fin 256, A (ix2 i k) * B (ix2 k j) := by
  simp only [Host.dotGeneral]
  rw [Ideal.dotGeneral_apply, ← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have el : dot_S8192x256_S256x8192_S8192x8192_1_0_0_1_n_n.lhsIdx (ix2 i j) ((contrEquiv1 dot_S8192x256_S256x8192_S8192x8192_1_0_0_1_n_n 256 rfl rfl).symm k) = ix2 i k := funext fun a => Fin.ext (by
    match a with
    | ⟨0, _⟩ => exact lhs_0 _ _
    | ⟨1, _⟩ => exact (lhs_1 _ _).trans hk)
  have er : dot_S8192x256_S256x8192_S8192x8192_1_0_0_1_n_n.rhsIdx (ix2 i j) ((contrEquiv1 dot_S8192x256_S256x8192_S8192x8192_1_0_0_1_n_n 256 rfl rfl).symm k) = ix2 k j := funext fun a => Fin.ext (by
    match a with
    | ⟨0, _⟩ => exact (rhs_0 _ _).trans hk
    | ⟨1, _⟩ => exact rhs_1 _ _)
  rw [el, er]

/-- The product array at (i, j) is the inner product of rows i and j. -/
theorem vS_apply (X : FVec Ideal S8192x256 .f32) (i j : Fin 8192) : vS X (ix2 i j) = Cert.RowNorm.gram X i j := by
  unfold vS Cert.RowNorm.gram
  rw [dot_apply]
  exact Finset.sum_congr rfl fun k _ => by rw [vT_apply]

/-- The sum over axis 1 of any square array of this size, from the zero word, at row i: the sum of that row. -/
theorem reduce_apply (Y : FVec Ideal S8192x8192 .f32) (i : Fin 8192) :
    Host.reduceAdd Y (constant (F := Ideal) S_ .f32 0x00000000#32) reducesTo_S8192x8192_S8192_d1 h_S_ (ix1 i)
      = ∑ j : Fin 8192, Y (ix2 i j) := by
  simp only [Host.reduceAdd, Ideal.hostReduceAdd_def]
  rw [Ideal.hostReduceAdd_single reducesTo_S8192x8192_S8192_d1 (by decide)]
  rw [show constant (F := Ideal) S_ .f32 0x00000000#32 (Shape.Idx.first h_S_) = 0 from Ideal.ofBits_zero_f32, zero_add]
  refine Finset.sum_congr rfl fun k _ => ?_
  exact congrArg Y (funext fun a => Fin.ext (by match a with | ⟨0, _⟩ => rfl | ⟨1, _⟩ => rfl))

/-- The row sums, as the predicate computes them. -/
def vR (X : FVec Ideal S8192x256 .f32) : FVec Ideal S8192 .f32 :=
  Host.reduceAdd (vS X) (constant (F := Ideal) S_ .f32 0x00000000#32) reducesTo_S8192x8192_S8192_d1 h_S_

/-- The predicate's row sum at i is the specification's. -/
theorem vR_apply (X : FVec Ideal S8192x256 .f32) (i : Fin 8192) : vR X (ix1 i) = Cert.RowNorm.rowsum X i := by
  unfold vR Cert.RowNorm.rowsum
  rw [reduce_apply]
  exact Finset.sum_congr rfl fun j _ => vS_apply X i j

/-! ## The precondition -/

/-- Where the predicate answers 1, every entry of the argument is a real number and no row sum of X·Xᵀ is zero. -/
theorem facts_of_pre (X : FVec Ideal Cert.Pre_finite_inputs.S8192x256 .f32)
    (h : Cert.Pre_finite_inputs.fn (F := Ideal) X = fun _ => 1#1) : Cert.RowNorm.Finite X ∧ Cert.RowNorm.RowsNonzero X := by
  have h0 := congrFun h ix0
  dsimp only [fn] at h0
  obtain ⟨h3, h9⟩ := IntOp.andi_eq_one.1 h0
  refine ⟨fun idx => ?_, fun i => ?_⟩
  · have e := Host.reduce_andi_all _ _ _ _ ix0 h3 idx
    rw [cmpf_apply, broadcastInDim_scalar_apply, constant_apply] at e
    exact real_of_test (X idx) e
  · have e := Host.reduce_andi_all _ _ _ _ ix0 h9 (ix1 i)
    rw [cmpf_apply, broadcastInDim_scalar_apply, constant_apply] at e
    rw [← vR_apply]
    exact ne_zero_of_test _ e

end Cert.PreFacts

end
-- ==== Proof.lean ====
/-
  For a matrix X of 8192 rows and 256 columns let S = X·Xᵀ and r i = Σ j, S i j. The kernel forms, for each tile of 2048
  rows, the numerator Σ j, S i j · X j d and the denominator r i by accumulating over sixteen tiles of 512 columns of S, and
  divides once at the end; the reference divides every S i j by r i first and multiplies by X afterwards. Where every entry
  of X is a real number and no row sum r i is zero the two results are the same extended reals: the quotient by r i is the
  product with its reciprocal, which moves across the finite sum, and the tiling only regroups the sums. (At a zero row
  sum the reference's own quotient is undefined; that is excluded by the precondition.) Each of the three programs
  runs to the end without a fault and leaves the argument array as it was. The idealization rewrote no operation, so there
  is nothing to preserve.
-/
import proofs.«159248_j63376537420539_2_alg».proof.Defs
import proofs.«159248_j63376537420539_2_alg».proof.Proof.Gen.Kernel
import proofs.«159248_j63376537420539_2_alg».proof.Proof.Gen.KernelIdeal
import proofs.«159248_j63376537420539_2_alg».proof.Proof.Gen.ReferenceIdeal
import proofs.«159248_j63376537420539_2_alg».proof.Proof.Gen.Pre_finite_inputs
import proofs.«159248_j63376537420539_2_alg».proof.Proof.Gen.ReferenceIdeal.Read
import proofs.«159248_j63376537420539_2_alg».proof.Proof.KWFrame
import proofs.«159248_j63376537420539_2_alg».proof.Proof.KIFrame
import proofs.«159248_j63376537420539_2_alg».proof.Proof.KIValue
import proofs.«159248_j63376537420539_2_alg».proof.Proof.RefRows
import proofs.«159248_j63376537420539_2_alg».proof.Proof.PreFacts
import Idealize.ShloMosaic.Adequacy
import Idealize.ShloMosaic.Init

noncomputable section

namespace Cert.Proof

open Idealize.ShloMosaic Idealize.ShloMosaic.TcCoe Idealize.SL.Sem

/-- The kernel as printed runs to the end and leaves its argument unchanged. -/
theorem frame_k : Cert.frame_Kernel := fun m ρ _ => Cert.Kernel.Hand.frame (F := Bits) m ρ

/-- So does the kernel read over the extended reals. -/
theorem frame_ki : Cert.frame_KernelIdeal := fun m ρ _ => Cert.KernelIdeal.Hand.frame (F := Ideal) m ρ

/-- The reference is eight host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the array i, d ↦ (Σ j, S i j · X j d) / r i of the common argument X. -/
theorem algebraic : Cert.algebraic_KernelIdeal_ReferenceIdeal := by
  intro m ρ m' ρ' hpre hagree
  refine ⟨fun c => Cert.RowNorm.G (Cert.KernelIdeal.Hand.argX m c), ?_, ?_⟩
  · exact (θ_run Cert.KernelIdeal.defs _ _).mono
      (fun _ h c => ⟨(h c).1.trans (Cert.KernelIdeal.Hand.arr3_final m c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨hf, hr⟩ := Cert.PreFacts.facts_of_pre _ (hpre c)
    rw [hagree c]
    exact (Cert.ReferenceIdeal.Read.val_main_v6_eq _).trans (Cert.ReferenceIdeal.Rows.ref_eq_G _ hf hr)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
